-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S1024x128 : Shape := ⟨2, ![1024, 128]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S256x128 : Shape := ⟨2, ![256, 128]⟩
abbrev S256x1 : Shape := ⟨2, ![256, 1]⟩
abbrev S128x8192 : Shape := ⟨2, ![128, 8192]⟩
abbrev S256x8192 : Shape := ⟨2, ![256, 8192]⟩
abbrev S256 : Shape := ⟨1, ![256]⟩
abbrev S128x256 : Shape := ⟨2, ![128, 256]⟩
abbrev S256x256 : Shape := ⟨2, ![256, 256]⟩
abbrev S_ : Shape := ⟨0, ![]⟩

abbrev nBuf : Space → Nat
  | .hbm => 20
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S256x128, .bf16⟩
  | .local _ .vmem, ⟨5, _⟩ => ⟨S256x128, .bf16⟩
  | .local _ .vmem, ⟨6, _⟩ => ⟨S8192x128, .bf16⟩
  | .local _ .vmem, ⟨7, _⟩ => ⟨S256x1, .i32⟩
  | .local _ .vmem, ⟨8, _⟩ => ⟨S256x1, .i32⟩
  | .local _ .vmem, ⟨9, _⟩ => ⟨S1x8192, .i32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c256_i32 : BitVec 32 := 256#32
  let v28 : BitVec 32 := Scalar.muli arg0 c256_i32
  v28
def k1_off1 (i : grid1.Coords) : Fin 2 → Nat :=
  let arg0 : BitVec 32 := BitVec.ofNat 32 (i 0).val
  let c256_i32 : BitVec 32 := 256#32
  let v28 : BitVec 32 := Scalar.muli arg0 c256_i32
  let v29 : BitVec 32 := v28
  let v30 : Index := Scalar.indexCast v29
  let c0_14 : Index := 0#32
  ![v30.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  packedbf16_S1024x128_S1024x128_0_0 : (Rect.unit (s := S1024x128) ![0, 0] S1024x128.size inb_S1024x128_S1024x128_0_0).PackedRows (EltTy.packing .bf16)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  transposes_S8192x128_p1_0_S128x8192 : S8192x128.Transposes [1, 0] S128x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  transposes_S256x128_p1_0_S128x256 : S256x128.Transposes [1, 0] S128x256
  iota_S256x256_d0_w32 : S256x256.Iotas .tc 32 [0]
  iota_S256x256_d1_w32 : S256x256.Iotas .tc 32 [1]
  reduces_S256x256_S256 : S256x256.Reduces [1] S256
  reducesTo_S8192x1_S_d0_1 : S8192x1.ReducesTo [0, 1] S_
  h_S_ : 0 < S_.numel
  dot_S256x128_S128x8192_S256x8192_1_0_0_1_n_n_wf : DotDims.WF S256x128 S128x8192 S256x8192 [1] [0] [0] [1] [] []
  dot_S256x128_S128x256_S256x256_1_0_0_1_n_n_wf : DotDims.WF S256x128 S128x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S256x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S8192x128.size a
  hwx1_0 : ∀ i : grid1.Coords, EltTy.bits .bf16 = 32 ∨ (Rect.block (s := S8192x128) S256x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S8192x1.size a
  hwx1_2 : ∀ i : grid1.Coords, EltTy.bits .i32 = 32 ∨ (Rect.block (s := S8192x1) S256x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .i32 = 32 ∨ (Rect.block (s := S1x8192) S1x8192.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S8192x1.size a
  hwx1_4 : ∀ i : grid1.Coords, EltTy.bits .f32 = 32 ∨ (Rect.block (s := S8192x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S8192x1.size a
  hwx1_5 : ∀ i : grid1.Coords, EltTy.bits .f32 = 32 ∨ (Rect.block (s := S8192x1) S256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S8192x1.size a
  hwx1_6 : ∀ i : grid1.Coords, EltTy.bits .f32 = 32 ∨ (Rect.block (s := S8192x1) S256x1.size (cc1_transform_6 i) (hinb1_6 i)).WholeWords (EltTy.packing .f32)

variable [Facts₀]

def dot_S256x128_S128x8192_S256x8192_1_0_0_1_n_n : DotDims S256x128 S128x8192 S256x8192 where
  lhsContracting := [1]
  rhsContracting := [0]
  lhsNonContracting := [0]
  rhsNonContracting := [1]
  lhsBatch := []
  rhsBatch := []
  wf := dot_S256x128_S128x8192_S256x8192_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S256x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S256x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_2) S256x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .f32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .i1⟩
  | .hbm, ⟨30, _⟩ => ⟨S8192x8192, .i1⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8192x8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.RowsRegionBits.lean ====
/-
  The row-normalizing region: what one grid point does, as a function of the array the region is entered with.

  The grid has 8 points; point `t` reads rows 1024·t … 1024·t+1023 of the feature array (its block) and
  writes the same rows of the normalized array.  The body loads the block whole, computes one pure function of it
  (the block's rows each divided by their floored length) and stores that whole: so after the body the output
  buffer holds that function of the input block, and the input buffer still holds the block.
-/
import proofs.«137735_j51797305589975_2_alg».proof.Proof.Gen.Kernel.Launch
import proofs.«137735_j51797305589975_2_alg».proof.Proof.Gen.Kernel.Skeleton
import proofs.«137735_j51797305589975_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over `V` whose body leaves
    the block in place. -/
theorem before_in_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The whole block as a rectangle. -/
abbrev whole : Rect S1024x128 := Rect.unit (s := S1024x128) ![0, 0] S1024x128.size inb_S1024x128_S1024x128_0_0

/-- What the body leaves in the output buffer: its one store, of the normalized block. -/
def outRows (x0 : Vec F S1024x128 .f32) : Vec F S1024x128 .bf16 :=
  View.canon [⟨whole, k0_pay1 (View.ld x0 whole)⟩]

/-- The one store covers the buffer. -/
theorem outRows_cover (p0 : Vec F S1024x128 .bf16) (y : S1024x128.Idx) :
    ∃ pc ∈ ([⟨whole, p0⟩] : List (View.Piece (Elt F) S1024x128 .bf16)), y ∈ pc.1.set :=
  View.cover_of_tiled [⟨whole, p0⟩] S1024x128.size (by rfl) y

set_option maxHeartbeats 1000000 in
/-- The body on whole staging buffers, the input's at contents `x0`, the output's at anything: it runs to its end with
    the input's as it was and the output's at `outRows x0`. -/
theorem sound_kernel (c : Dev nD) (E : Set ℕ) (i : grid0.Coords) (arg1 : Memref sig .tc .vmem S1024x128 .f32) (harg1 : arg1.IsWhole) (arg2 : Memref sig .tc .vmem S1024x128 .bf16) (harg2 : arg2.IsWhole)
    (x0 : Vec F S1024x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outRows x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (outRows_cover _)

/-- The region's proof data on core `c`: the arrays as found; after the body the input's buffer at its block and the
    output's at `outRows` of it; the invariant is the scoped buffers no window stages and the generator register,
    untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => outRows (blk V c 0 t)
  Φ _ := Pipeline.ΦA spec0 c
  q _ := fullShare
  owed _ := 0

theorem A_eq (c : Dev nD) (w : Fin cfg0.W) : (dat V c).A w = V c (Pipeline.arrRef spec0 w) := by
  dsimp only [dat]
theorem after_in (c : Dev nD) (t : Fin cfg0.N) : (dat V c).after 0 t = blk V c 0 t := by dsimp only [dat]
theorem after_out (c : Dev nD) (t : Fin cfg0.N) : (dat V c).after 1 t = outRows (blk V c 0 t) := by dsimp only [dat]
theorem before_in (c : Dev nD) (t : Fin cfg0.N) (d) : (dat V c).before 0 t d = blk V c 0 t :=
  before_in_of V (dat V c) (A_eq V c 0) (after_in V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (sound_kernel c Set.univ _ _ _ _ _ (blk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation at every point. -/
theorem body_obligation (c : Dev nD) : BodyObligation (dat (F := F) V c) (defs₀ (F := F)) Variants.none () Set.univ := fun t => by
  rw [bigSep_W0, bigSep_W0]
  exact sound_body V c t

end Cert.Kernel.Rows

end
-- ==== Proof.SimsRegionBits.lean ====
/-
  The similarity region: what one grid point does, as a function of the arrays the region is entered with.

  The grid has 32 points; point `t` takes as its queries rows 256·t … 256·t+255 of the normalized array, reads the
  WHOLE normalized array as its keys (the same array through a second window), the queries' labels as a column
  and all labels as a row, and writes rows 256·t … of three one-column results.  The body loads the four input
  blocks whole, loads once more from the key buffer the 256 rows starting at 256·t (the keys that sit on the
  diagonal of this block of queries), and stores three pure functions of those five loads, each store covering
  its one-column buffer.  Nothing is kept from one point to the next.
-/
import proofs.«137735_j51797305589975_2_alg».proof.Proof.Gen.Kernel.Launch
import proofs.«137735_j51797305589975_2_alg».proof.Proof.Gen.Kernel.Skeleton
import proofs.«137735_j51797305589975_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Sims

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (a window whose block
    index does not move is fetched once and still holds that block), for any proof data over `V` whose body leaves
    the block in place. One statement per input window: the windows' types differ. -/
theorem before_q_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_k_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_ql_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_kl_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The body's rectangles -/

abbrev rQ : Rect S256x128 := Rect.unit (s := S256x128) ![0, 0] S256x128.size inb_S256x128_S256x128_0_0
abbrev rK : Rect S8192x128 := Rect.unit (s := S8192x128) ![0, 0] S8192x128.size inb_S8192x128_S8192x128_0_0
abbrev rCol : Rect S256x1 := Rect.unit (s := S256x1) ![0, 0] S256x1.size inb_S256x1_S256x1_0_0
abbrev rRow : Rect S1x8192 := Rect.unit (s := S1x8192) ![0, 0] S1x8192.size inb_S1x8192_S1x8192_0_0
/-- The 256 key rows on the diagonal of the point's queries. -/
abbrev rDiag (i : grid1.Coords) : Rect S8192x128 := Rect.unit (s := S8192x128) (k1_off1 i) S256x128.size (k1_off1_inb i)

/-! ## What the body stores, from the four input buffers' contents -/

section Stored
variable (i : grid1.Coords) (xq : Vec F S256x128 .bf16) (xk : Vec F S8192x128 .bf16) (xql : Vec F S256x1 .i32) (xkl : Vec F S1x8192 .i32)

/-- The loss column of the block of queries. -/
def lossVal : FVec F S256x1 .f32 :=
  k1_pay4 (k1_pay9 (View.ld xq rQ) (View.ld xk rK)) (k1_pay10 (View.ld xq rQ) (View.ld xk rK) (View.ld xql rCol) (View.ld xkl rRow))
    (k1_pay13 (View.ld xq rQ) (View.ld xk (rDiag i))) k1_pay14 k1_pay15
/-- The same-label similarity column without the diagonal. -/
def posVal : FVec F S256x1 .f32 :=
  k1_pay2 (k1_pay12 (View.ld xq rQ) (View.ld xk rK) (View.ld xql rCol) (View.ld xkl rRow))
    (k1_pay13 (View.ld xq rQ) (View.ld xk (rDiag i))) k1_pay14 k1_pay15
/-- The other-label similarity column. -/
def negVal : FVec F S256x1 .f32 :=
  k1_pay3 (k1_pay11 (View.ld xq rQ) (View.ld xk rK)) (k1_pay12 (View.ld xq rQ) (View.ld xk rK) (View.ld xql rCol) (View.ld xkl rRow))

def outLoss : Vec F S256x1 .f32 := View.canon [⟨rCol, lossVal i xq xk xql xkl⟩]
def outPos : Vec F S256x1 .f32 := View.canon [⟨rCol, posVal i xq xk xql xkl⟩]
def outNeg : Vec F S256x1 .f32 := View.canon [⟨rCol, negVal xq xk xql xkl⟩]
end Stored

/-- One store of the whole column covers the column. -/
theorem col_cover (p0 : Vec F S256x1 .f32) (y : S256x1.Idx) :
    ∃ pc ∈ ([⟨rCol, p0⟩] : List (View.Piece (Elt F) S256x1 .f32)), y ∈ pc.1.set :=
  View.cover_of_tiled [⟨rCol, p0⟩] S256x1.size (by rfl) y

set_option maxHeartbeats 4000000 in
/-- The body on whole staging buffers, the inputs' at given contents and the outputs' at anything: it runs to its end
    with the inputs' as they were and each output's at the column it stores. -/
theorem sound_kernel (c : Dev nD) (E : Set ℕ) (i : grid1.Coords)
    (arg1 : Memref sig .tc .vmem S256x128 .bf16) (harg1 : arg1.IsWhole) (arg2 : Memref sig .tc .vmem S8192x128 .bf16) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x1 .f32) (harg7 : arg7.IsWhole)
    (xq : Vec F S256x128 .bf16) (xk : Vec F S8192x128 .bf16) (xql : Vec F S256x1 .i32) (xkl : Vec F S1x8192 .i32) (K : PUnit → sProp 𝕄) :
    iprop(owns (c : Thread nD τ) arg1 fullShare xq ∗ owns (c : Thread nD τ) arg2 fullShare xk
        ∗ owns (c : Thread nD τ) arg3 fullShare xql ∗ owns (c : Thread nD τ) arg4 fullShare xkl
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare xq ∗ owns (c : Thread nD τ) arg2 fullShare xk
            ∗ owns (c : Thread nD τ) arg3 fullShare xql ∗ owns (c : Thread nD τ) arg4 fullShare xkl
            ∗ owns (c : Thread nD τ) arg5 fullShare (outLoss i xq xk xql xkl)
            ∗ owns (c : Thread nD τ) arg6 fullShare (outPos i xq xk xql xkl)
            ∗ owns (c : Thread nD τ) arg7 fullShare (outNeg xq xk xql xkl)) -∗ K ⟨⟩))
      ⊢ wp frame (wpE (defs₀ (F := F)) Variants.none c none) E
          (cc1__sim_kernel i arg1 harg1 arg2 harg2 arg3 harg3 arg4 harg4 arg5 harg5 arg6 harg6 arg7 harg7) K := by
  simp only [cc1__sim_kernel_eq_skeleton]; unfold cc1__sim_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (col_cover _)
  isplitl [H5]
  · iexists _; isplitr
    swap; · iexact H5
    ipureintro
    exact View.read_writes_eq_canon _ _ _ (col_cover _)
  iexists _; isplitr
  swap; · iexact H6
  ipureintro
  exact View.read_writes_eq_canon _ _ _ (col_cover _)

/-- The region's proof data on core `c`: the arrays as found; after the body each input's buffer at its block and
    each output's at the column the body stores there; the invariant is the scoped buffers no window stages and
    the generator register, untouched; nothing owed. The normalized array is read through two windows: each holds
    one half of the full share of it, every other array is held whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => outLoss (grid1.coords t) (blk V c 0 t) (blk V c 1 t) (blk V c 2 t) (blk V c 3 t)
    | ⟨5, _⟩ => outPos (grid1.coords t) (blk V c 0 t) (blk V c 1 t) (blk V c 2 t) (blk V c 3 t)
    | ⟨6, _⟩ => outNeg (blk V c 0 t) (blk V c 1 t) (blk V c 2 t) (blk V c 3 t)
  Φ _ := Pipeline.ΦA spec1 c
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]
theorem after_q (c : Dev nD) (t : Fin cfg1.N) : (dat V c).after 0 t = blk V c 0 t := by dsimp only [dat]
theorem after_k (c : Dev nD) (t : Fin cfg1.N) : (dat V c).after 1 t = blk V c 1 t := by dsimp only [dat]
theorem after_ql (c : Dev nD) (t : Fin cfg1.N) : (dat V c).after 2 t = blk V c 2 t := by dsimp only [dat]
theorem after_kl (c : Dev nD) (t : Fin cfg1.N) : (dat V c).after 3 t = blk V c 3 t := by dsimp only [dat]
theorem after_loss (c : Dev nD) (t : Fin cfg1.N) :
    (dat V c).after 4 t = outLoss (grid1.coords t) (blk V c 0 t) (blk V c 1 t) (blk V c 2 t) (blk V c 3 t) := by dsimp only [dat]
theorem after_pos (c : Dev nD) (t : Fin cfg1.N) :
    (dat V c).after 5 t = outPos (grid1.coords t) (blk V c 0 t) (blk V c 1 t) (blk V c 2 t) (blk V c 3 t) := by dsimp only [dat]
theorem after_neg (c : Dev nD) (t : Fin cfg1.N) :
    (dat V c).after 6 t = outNeg (blk V c 0 t) (blk V c 1 t) (blk V c 2 t) (blk V c 3 t) := by dsimp only [dat]

theorem before_q (c : Dev nD) (t : Fin cfg1.N) (d) : (dat V c).before 0 t d = blk V c 0 t :=
  before_q_of V (dat V c) (A_eq V c 0) (after_q V c) t d
theorem before_k (c : Dev nD) (t : Fin cfg1.N) (d) : (dat V c).before 1 t d = blk V c 1 t :=
  before_k_of V (dat V c) (A_eq V c 1) (after_k V c) t d
theorem before_ql (c : Dev nD) (t : Fin cfg1.N) (d) : (dat V c).before 2 t d = blk V c 2 t :=
  before_ql_of V (dat V c) (A_eq V c 2) (after_ql V c) t d
theorem before_kl (c : Dev nD) (t : Fin cfg1.N) (d) : (dat V c).before 3 t d = blk V c 3 t :=
  before_kl_of V (dat V c) (A_eq V c 3) (after_kl V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_ql, before_kl]
  rw [show (dat V c).Φ t.succ = (dat V c).Φ t.castSucc from rfl,
    show (dat V c).owesAt () t.succ = (dat V c).owesAt () t.castSucc from rfl,
    after_q, after_k, after_ql, after_kl, after_loss, after_pos, after_neg]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation (c : Dev nD) : BodyObligation (dat (F := F) V c) (defs₀ (F := F)) Variants.none () Set.univ := fun t => by
  rw [bigSep_W1, bigSep_W1]
  exact sound_body V c t

end Cert.Kernel.Sims

end
-- ==== Proof.WholeBits.lean ====
/-
  The whole program as four segments — the row-normalizing region, two host lines that lay the labels out as a
  column and as a row, the similarity region, the host lines that sum the three result columns and divide — and
  what every buffer holds at each boundary between them.

  Between segments the core holds every buffer that outlives a region at a named valuation: the launch memory; then
  the normalized array replaced by what the first region's write-backs leave; then the host lines applied; then the
  three result columns replaced by what the second region's write-backs leave; then the last host lines applied.
  The second region reads the normalized array through two windows; it is handed that buffer as two halves of the
  full share, one per window, and gives the two halves back joined, the contents unchanged.
-/
import proofs.«137735_j51797305589975_2_alg».proof.Proof.RowsRegionBits
import proofs.«137735_j51797305589975_2_alg».proof.Proof.SimsRegionBits
import proofs.«137735_j51797305589975_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (the first region's entry). -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b
/-- After the first region: its arrays at what its write-backs leave, every other buffer as launched. -/
def Wb (c : Dev nD) : Valuation τ sig (Elt F) :=
  Pipeline.withArrays spec0 c (Wa m ρ c) fun w => (Rows.dat (Va m ρ) c).arrAt w cfg0.N
theorem Wb_arr (c : Dev nD) (w : Fin cfg0.W) :
    Wb m ρ c (Proc.devRef .tc (Pipeline.arrRef spec0 w)) = (Rows.dat (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem Vb_arr (c : Dev nD) (w : Fin cfg0.W) : (Rows.dat (Va m ρ) c).arrAt w cfg0.N = Vb m ρ c (Pipeline.arrRef spec0 w) :=
  (Wb_arr m ρ c w).symm
theorem Vb_rest (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the two label-layout lines (the second region's entry). -/
abbrev Wc : Dev nD → Valuation τ sig (Elt F) := fun c => StableHlo.after hostOps1 (Wb m ρ c)
abbrev Vc : (c : Dev nD) → (b : Ref sig .tc) → Buf (Elt F) ((c : Thread nD τ).loc b) := fun c b => Wc m ρ c b

/-- The second region's three output windows, by themselves: their arrays are three distinct buffers. -/
abbrev outSpec : Fin 3 → Pipeline.WinSpec sig grid1.rank := fun | 0 => spec1 4 | 1 => spec1 5 | 2 => spec1 6 | ⟨_ + 3, h⟩ => absurd h (Nat.not_lt.2 (Nat.le_add_left _ _))
theorem outSpec_inj : Function.Injective (Pipeline.arrRef outSpec) := by decide
/-- What the second region's write-backs leave in each result column. -/
def outCols (c : Dev nD) : (k : Fin 3) → Buf (Elt F) ((outSpec k).arr.view.loc (c : Thread nD τ))
  | 0 => (Sims.dat (Vc m ρ) c).arrAt 4 cfg1.N
  | 1 => (Sims.dat (Vc m ρ) c).arrAt 5 cfg1.N
  | 2 => (Sims.dat (Vc m ρ) c).arrAt 6 cfg1.N
  | ⟨_ + 3, h⟩ => absurd h (Nat.not_lt.2 (Nat.le_add_left _ _))
/-- After the second region: the three result columns at what its write-backs leave, every other buffer as entered. -/
def Wd (c : Dev nD) : Valuation τ sig (Elt F) := Pipeline.withArrays outSpec c (Wc m ρ c) (outCols m ρ c)
theorem Wd_col (c : Dev nD) (k : Fin 3) : Wd m ρ c (Proc.devRef .tc (Pipeline.arrRef outSpec k)) = outCols m ρ c k := by
  unfold Wd; exact Pipeline.withArrays_arr outSpec outSpec_inj c _ _ k
theorem Wd_of_ne (c : Dev nD) (b : Ref sig .tc) (hb : ∀ k, Pipeline.arrRef outSpec k ≠ b) :
    Wd m ρ c (Proc.devRef .tc b) = Wc m ρ c (Proc.devRef .tc b) := by
  unfold Wd; exact Pipeline.withArrays_of_ne outSpec c _ _ b hb
abbrev Vd : (c : Dev nD) → (b : Ref sig .tc) → Buf (Elt F) ((c : Thread nD τ).loc b) := fun c b => Wd m ρ c b
/-- After the last host lines: the program's end. -/
abbrev We : Dev nD → Valuation τ sig (Elt F) := fun c => StableHlo.after hostOps2 (Wd m ρ c)

/-! ## The proof data family and what rides along -/

abbrev tables : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) tables p) c
  | ⟨0, _⟩ => fun c => Rows.dat (Va m ρ) c
  | ⟨1, _⟩ => fun c => Sims.dat (Vc m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (We m ρ c) ∗ ∃ r, prngReg c r)

/-! ## The normalized array dealt to the second region's two windows, and taken back -/

section Deal
variable (V' V : (c : Dev nD) → (b : Ref sig .tc) → Buf (Elt F) ((c : Thread nD τ).loc b))

/-- The second region's arrays at contents read off a valuation `V`, window by window: the normalized array twice, at
    the two halves of the full share, and the five other arrays whole. -/
theorem arrays_chain (c : Dev nD) (G : (w : Fin cfg1.W) → Buf (Elt F) ((cfg1.win w).arr.view.loc (c : Thread nD τ)))
    (hG : ∀ w, G w = V c (Pipeline.arrRef spec1 w)) :
    ((Sims.dat V' c).arrays G : sProp 𝕄)
      = iprop((((c : Thread nD τ).loc main_v0) ↦{fullShare.left} V c main_v0) ∗ (((c : Thread nD τ).loc main_v0) ↦{fullShare.right} V c main_v0)
          ∗ (((c : Thread nD τ).loc main_v1) ↦{fullShare} V c main_v1) ∗ (((c : Thread nD τ).loc main_v2) ↦{fullShare} V c main_v2)
          ∗ (((c : Thread nD τ).loc main_v3_0) ↦{fullShare} V c main_v3_0) ∗ (((c : Thread nD τ).loc main_v3_1) ↦{fullShare} V c main_v3_1)
          ∗ (((c : Thread nD τ).loc main_v3_2) ↦{fullShare} V c main_v3_2)) := by
  obtain rfl : G = fun w => V c (Pipeline.arrRef spec1 w) := funext hG
  unfold Dat.arrays
  rw [bigSep_W1, (arr_whole1 0).set_eq_univ, (arr_whole1 2).set_eq_univ, (arr_whole1 3).set_eq_univ,
    (arr_whole1 4).set_eq_univ, (arr_whole1 5).set_eq_univ, (arr_whole1 6).set_eq_univ]
  rfl

/-- The distinct buffers behind the second region's arrays, listed. -/
theorem arrBufs_chain (c : Dev nD) :
    (Pipeline.arrBufs (Ix := Unit) (Name := ℕ) (U := UR sig nD τ) (Lvl := ℕ) spec1 c (V c) : sProp 𝕄)
      = iprop((((c : Thread nD τ).loc main_v0) ↦{fullShare} V c main_v0)
          ∗ (((c : Thread nD τ).loc main_v1) ↦{fullShare} V c main_v1) ∗ (((c : Thread nD τ).loc main_v2) ↦{fullShare} V c main_v2)
          ∗ (((c : Thread nD τ).loc main_v3_0) ↦{fullShare} V c main_v3_0) ∗ (((c : Thread nD τ).loc main_v3_1) ↦{fullShare} V c main_v3_1)
          ∗ (((c : Thread nD τ).loc main_v3_2) ↦{fullShare} V c main_v3_2)) := by
  unfold Pipeline.arrBufs
  exact bigSep_eq_bigSepL_of_eq [main_v0, main_v1, main_v2, main_v3_0, main_v3_1, main_v3_2] (by decide) (by decide) _

/-- ENTRY: the buffers whole become the arrays, the normalized array's full share split in two. -/
theorem deal_in (c : Dev nD) (G : (w : Fin cfg1.W) → Buf (Elt F) ((cfg1.win w).arr.view.loc (c : Thread nD τ)))
    (hG : ∀ w, G w = V c (Pipeline.arrRef spec1 w)) :
    (Pipeline.arrBufs (Ix := Unit) (Name := ℕ) (U := UR sig nD τ) (Lvl := ℕ) spec1 c (V c) : sProp 𝕄) ⊢ (Sims.dat V' c).arrays G := by
  rw [arrays_chain V' V c G hG, arrBufs_chain V c]
  iintro ⟨H0, H1, H2, H3, H4, H5⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H2]; · iexact H2
  isplitl [H3]; · iexact H3
  isplitl [H4]; · iexact H4
  iexact H5

/-- EXIT: the arrays become the buffers whole again, the two halves joined. -/
theorem deal_out (c : Dev nD) (G : (w : Fin cfg1.W) → Buf (Elt F) ((cfg1.win w).arr.view.loc (c : Thread nD τ)))
    (hG : ∀ w, G w = V c (Pipeline.arrRef spec1 w)) :
    ((Sims.dat V' c).arrays G : sProp 𝕄) ⊢ Pipeline.arrBufs (Ix := Unit) (Name := ℕ) (U := UR sig nD τ) (Lvl := ℕ) spec1 c (V c) := by
  rw [arrays_chain V' V c G hG, arrBufs_chain V c]
  iintro ⟨Hl, Hr, H1, H2, H3, H4, H5⟩
  ihave H0 := (pointsTo_share (PosShare.mem_left_op_right fullShare)).2 $$ [Hl Hr]
  · isplitl [Hl]; · iexact Hl
    iexact Hr
  isplitl [H0]; · iexact H0
  isplitl [H1]; · iexact H1
  isplitl [H2]; · iexact H2
  isplitl [H3]; · iexact H3
  isplitl [H4]; · iexact H4
  iexact H5

end Deal

/-! ## The regions as segments -/

set_option backward.isDefEq.respectTransparency.types false in
/-- The row-normalizing region: entered with every long-lived buffer at the launch contents, left with them at
    `Wb`. Its two arrays are split out of the buffers at entry and put back at exit; the generator register goes into
    the region's invariant and comes back; nothing is owed; the kernel names no semaphore of its own. -/
def regRows : Pipeline.RegionSeg (pcfgs (F := F)) tables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Rows.body_obligation (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (Vb_arr m ρ c) (Vb_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the second region's exit each of its arrays holds what `Wd` says: an input what it held at entry, a result
    column what the write-backs leave. -/
theorem Vd_arr (c : Dev nD) : ∀ w : Fin cfg1.W, (Sims.dat (Vc m ρ) c).arrAt w cfg1.N = Vd m ρ c (Pipeline.arrRef spec1 w)
  | 0 => ((Sims.dat (Vc m ρ) c).arrAt_in 0 rfl _).trans ((Sims.A_eq (Vc m ρ) c 0).trans (Wd_of_ne m ρ c main_v0 (by decide)).symm)
  | 1 => ((Sims.dat (Vc m ρ) c).arrAt_in 1 rfl _).trans ((Sims.A_eq (Vc m ρ) c 1).trans (Wd_of_ne m ρ c main_v0 (by decide)).symm)
  | 2 => ((Sims.dat (Vc m ρ) c).arrAt_in 2 rfl _).trans ((Sims.A_eq (Vc m ρ) c 2).trans (Wd_of_ne m ρ c main_v1 (by decide)).symm)
  | 3 => ((Sims.dat (Vc m ρ) c).arrAt_in 3 rfl _).trans ((Sims.A_eq (Vc m ρ) c 3).trans (Wd_of_ne m ρ c main_v2 (by decide)).symm)
  | 4 => (Wd_col m ρ c 0).symm
  | 5 => (Wd_col m ρ c 1).symm
  | 6 => (Wd_col m ρ c 2).symm
  | ⟨_ + 7, h⟩ => absurd h (Nat.not_lt.2 (Nat.le_add_left _ _))
theorem Vd_rest (c : Dev nD) : ∀ b, b ∉ Finset.univ.image (Pipeline.arrRef spec1) → Vd m ρ c b = Vc m ρ c b :=
  fun b hb => Wd_of_ne m ρ c b fun k e => hb (Finset.mem_image.mpr (by
    revert e; revert k
    exact fun
      | 0 => fun e => ⟨4, Finset.mem_univ _, e⟩
      | 1 => fun e => ⟨5, Finset.mem_univ _, e⟩
      | 2 => fun e => ⟨6, Finset.mem_univ _, e⟩
      | ⟨_ + 3, h⟩ => absurd h (Nat.not_lt.2 (Nat.le_add_left _ _))))

set_option backward.isDefEq.respectTransparency.types false in
/-- The similarity region: entered with every long-lived buffer at `Wc`, left with them at `Wd`. The buffers
    behind its arrays are split out at entry, the normalized array's share dealt to its two windows, and joined and
    put back at exit. -/
def regSims : Pipeline.RegionSeg (pcfgs (F := F)) tables (pdats m ρ) () defs₀ 𝒱₀ L lv 1 where
  win := winFacts₀1
  block_pos := block_pos1
  stage_whole := stage_whole1
  K := PEmpty
  osem k := k.elim
  ho := Pipeline.OwnSemFacts.none _
  hbody c := (Sims.body_obligation (Vc m ρ) c).loose
  hwaits := Pipeline.hwaits_of_owed_zero _ _ _ _ L lv 1 fun _ _ => rfl
  pre c := iprop(StableHlo.held (c : Thread nD τ) (Pipeline.ucRefs τ sig) (Wc m ρ c) ∗ R c)
  post c := iprop(StableHlo.held (c : Thread nD τ) (Pipeline.ucRefs τ sig) (Wd m ρ c) ∗ R c)
  X c := iprop(∃ r, prngReg c r)
  Y c := iprop(∃ r, prngReg c r)
  Z c := Pipeline.unscopedRest (Ix := Unit) (Name := ℕ) (U := UR sig nD τ) (Lvl := ℕ) spec1 c (Vc m ρ c)
  hentry c := by
    rw [Pipeline.ownSems0_none]
    have hsplit : (unscopedBufs (Ix := Unit) (Name := ℕ) (U := UR sig nD τ) (Lvl := ℕ) c (Vc m ρ c) : sProp 𝕄)
        ⊢ iprop((pdats m ρ 1 c).arrays ((pdats m ρ 1 c).arrAt · 0) ∗ Pipeline.unscopedRest spec1 c (Vc m ρ c)) := by
      rw [Pipeline.unscopedBufs_split₀ (Pipeline.pin (pcfgs (F := F)) tables) 1 winFacts₀1.arr_unscoped c (Vc m ρ c)]
      exact sep_mono (deal_in (Vc m ρ) (Vc m ρ) c _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (Vc m ρ c))
        ⊢ (unscopedBufs (Ix := Unit) (Name := ℕ) (U := UR sig nD τ) (Lvl := ℕ) c (Vd m ρ c) : sProp 𝕄) := by
      rw [Pipeline.unscopedBufs_split₀ (Pipeline.pin (pcfgs (F := F)) tables) 1 winFacts₀1.arr_unscoped c (Vd m ρ c)]
      refine sep_mono (deal_out (Vc m ρ) (Vd m ρ) c _ (Vd_arr m ρ c)) (Entails.of_eq ?_)
      unfold Pipeline.unscopedRest
      exact bigSep_congr fun b hb => by rw [Vd_rest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

/-- The last host segment's end is the program's end, the generator register regrouped with the buffers. -/
theorem last_step (c : Dev nD) :
    iprop(StableHlo.held (c : Thread nD τ) (Pipeline.ucRefs τ sig) (We m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

abbrev parts : List (Pipeline.Seg (pcfgs (F := F)) tables (pdats m ρ) () defs₀ 𝒱₀ L lv) :=
  [ .region (regRows m ρ),
    .host (hseg hostOps1 hostOps1_sub hostOps1_fresh (Wb m ρ)),
    .region (regSims m ρ),
    .host (hseg hostOps2 hostOps2_sub hostOps2_fresh (Wd m ρ)) ]
theorem main_run (c : Dev nD) : main (F := F) c = Pipeline.Seg.run (parts m ρ) := (main_chain c).trans (by chain_rfl)

set_option backward.isDefEq.respectTransparency.types false in
/-- THE RUN: from any memory with zero counters every weakly fair execution of the program terminates, nothing
    faulting, and at the end every long-lived buffer holds what the end valuation `We` says. -/
theorem run : θ_run defs (onTc (τ := τ) (main (F := F))) ⟨m, fun _ => 0, ρ⟩ (fun r => ∀ c : Dev nD,
      ∀ b ∈ Pipeline.ucRefs τ sig, r.2.mem (((c : Thread nD τ)).1, b) = We m ρ c b) :=
  Pipeline.θ_run_regions_kit (pcfgs (F := F)) tables (pdats m ρ) () cellOf_inj emb₁ defs₀ 𝒱₀ L lv m ρ main (parts m ρ)
    (fun c Q => by rw [main_run m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl, fun _ => .rfl, fun c => last_step m ρ c⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h c => h c)

/-! ## The arguments end as launched -/

/-- No host line and no region writes the feature array: the first region reads it through an input window. -/
theorem We_main_arg0 (c : Dev nD) : We m ρ c (Proc.devRef .tc main_arg0) = m ((c : Thread nD τ).loc main_arg0) :=
  calc We m ρ c (Proc.devRef .tc main_arg0)
    _ = Wd m ρ c (Proc.devRef .tc main_arg0) := StableHlo.after_of_writes_sub hostOps2 _ hostOps2_writes (r := main_arg0) (by decide)
    _ = Wc m ρ c (Proc.devRef .tc main_arg0) := Wd_of_ne m ρ c main_arg0 (by decide)
    _ = Wb m ρ c (Proc.devRef .tc main_arg0) := StableHlo.after_of_writes_sub hostOps1 _ hostOps1_writes (r := main_arg0) (by decide)
    _ = Wa m ρ c (Proc.devRef .tc main_arg0) := (Wb_arr m ρ c 0).trans (((Rows.dat (Va m ρ) c).arrAt_in 0 rfl _).trans (Rows.A_eq (Va m ρ) c 0))
    _ = m ((c : Thread nD τ).loc main_arg0) := rfl
/-- Nor the label array: the host lines only read it. -/
theorem We_main_arg1 (c : Dev nD) : We m ρ c (Proc.devRef .tc main_arg1) = m ((c : Thread nD τ).loc main_arg1) :=
  calc We m ρ c (Proc.devRef .tc main_arg1)
    _ = Wd m ρ c (Proc.devRef .tc main_arg1) := StableHlo.after_of_writes_sub hostOps2 _ hostOps2_writes (r := main_arg1) (by decide)
    _ = Wc m ρ c (Proc.devRef .tc main_arg1) := Wd_of_ne m ρ c main_arg1 (by decide)
    _ = Wb m ρ c (Proc.devRef .tc main_arg1) := StableHlo.after_of_writes_sub hostOps1 _ hostOps1_writes (r := main_arg1) (by decide)
    _ = Wa m ρ c (Proc.devRef .tc main_arg1) := Wb_of_ne m ρ c main_arg1 (by decide)
    _ = m ((c : Thread nD τ).loc main_arg1) := rfl

/-- THE FRAME: the program runs to its end, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (We_main_arg0 m ρ c), (h c _ (mem_uc main_arg1 (by decide))).trans (We_main_arg1 m ρ c)⟩)
    (run m ρ)

end Cert.Kernel.Whole

end
-- ==== Proof.RowsRegionIdeal.lean ====
/-
  The row-normalizing region: what one grid point does, as a function of the array the region is entered with.

  The grid has 8 points; point `t` reads rows 1024·t … 1024·t+1023 of the feature array (its block) and
  writes the same rows of the normalized array.  The body loads the block whole, computes one pure function of it
  (the block's rows each divided by their floored length) and stores that whole: so after the body the output
  buffer holds that function of the input block, and the input buffer still holds the block.
-/
import proofs.«137735_j51797305589975_2_alg».proof.Proof.Gen.KernelIdeal.Launch
import proofs.«137735_j51797305589975_2_alg».proof.Proof.Gen.KernelIdeal.Skeleton
import proofs.«137735_j51797305589975_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data over `V` whose body leaves
    the block in place. -/
theorem before_in_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The whole block as a rectangle. -/
abbrev whole : Rect S1024x128 := Rect.unit (s := S1024x128) ![0, 0] S1024x128.size inb_S1024x128_S1024x128_0_0

/-- What the body leaves in the output buffer: its one store, of the normalized block. -/
def outRows (x0 : Vec F S1024x128 .f32) : Vec F S1024x128 .bf16 :=
  View.canon [⟨whole, k0_pay1 (View.ld x0 whole)⟩]

/-- The one store covers the buffer. -/
theorem outRows_cover (p0 : Vec F S1024x128 .bf16) (y : S1024x128.Idx) :
    ∃ pc ∈ ([⟨whole, p0⟩] : List (View.Piece (Elt F) S1024x128 .bf16)), y ∈ pc.1.set :=
  View.cover_of_tiled [⟨whole, p0⟩] S1024x128.size (by rfl) y

set_option maxHeartbeats 1000000 in
/-- The body on whole staging buffers, the input's at contents `x0`, the output's at anything: it runs to its end with
    the input's as it was and the output's at `outRows x0`. -/
theorem sound_kernel (c : Dev nD) (E : Set ℕ) (i : grid0.Coords) (arg1 : Memref sig .tc .vmem S1024x128 .f32) (harg1 : arg1.IsWhole) (arg2 : Memref sig .tc .vmem S1024x128 .bf16) (harg2 : arg2.IsWhole)
    (x0 : Vec F S1024x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outRows x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (outRows_cover _)

/-- The region's proof data on core `c`: the arrays as found; after the body the input's buffer at its block and the
    output's at `outRows` of it; the invariant is the scoped buffers no window stages and the generator register,
    untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => outRows (blk V c 0 t)
  Φ _ := Pipeline.ΦA spec0 c
  q _ := fullShare
  owed _ := 0

theorem A_eq (c : Dev nD) (w : Fin cfg0.W) : (dat V c).A w = V c (Pipeline.arrRef spec0 w) := by
  dsimp only [dat]
theorem after_in (c : Dev nD) (t : Fin cfg0.N) : (dat V c).after 0 t = blk V c 0 t := by dsimp only [dat]
theorem after_out (c : Dev nD) (t : Fin cfg0.N) : (dat V c).after 1 t = outRows (blk V c 0 t) := by dsimp only [dat]
theorem before_in (c : Dev nD) (t : Fin cfg0.N) (d) : (dat V c).before 0 t d = blk V c 0 t :=
  before_in_of V (dat V c) (A_eq V c 0) (after_in V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (sound_kernel c Set.univ _ _ _ _ _ (blk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation at every point. -/
theorem body_obligation (c : Dev nD) : BodyObligation (dat (F := F) V c) (defs₀ (F := F)) Variants.none () Set.univ := fun t => by
  rw [bigSep_W0, bigSep_W0]
  exact sound_body V c t

end Cert.KernelIdeal.Rows

end
-- ==== Proof.SimsRegionIdeal.lean ====
/-
  The similarity region: what one grid point does, as a function of the arrays the region is entered with.

  The grid has 32 points; point `t` takes as its queries rows 256·t … 256·t+255 of the normalized array, reads the
  WHOLE normalized array as its keys (the same array through a second window), the queries' labels as a column
  and all labels as a row, and writes rows 256·t … of three one-column results.  The body loads the four input
  blocks whole, loads once more from the key buffer the 256 rows starting at 256·t (the keys that sit on the
  diagonal of this block of queries), and stores three pure functions of those five loads, each store covering
  its one-column buffer.  Nothing is kept from one point to the next.
-/
import proofs.«137735_j51797305589975_2_alg».proof.Proof.Gen.KernelIdeal.Launch
import proofs.«137735_j51797305589975_2_alg».proof.Proof.Gen.KernelIdeal.Skeleton
import proofs.«137735_j51797305589975_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Sims

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (a window whose block
    index does not move is fetched once and still holds that block), for any proof data over `V` whose body leaves
    the block in place. One statement per input window: the windows' types differ. -/
theorem before_q_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_k_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_ql_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_kl_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The body's rectangles -/

abbrev rQ : Rect S256x128 := Rect.unit (s := S256x128) ![0, 0] S256x128.size inb_S256x128_S256x128_0_0
abbrev rK : Rect S8192x128 := Rect.unit (s := S8192x128) ![0, 0] S8192x128.size inb_S8192x128_S8192x128_0_0
abbrev rCol : Rect S256x1 := Rect.unit (s := S256x1) ![0, 0] S256x1.size inb_S256x1_S256x1_0_0
abbrev rRow : Rect S1x8192 := Rect.unit (s := S1x8192) ![0, 0] S1x8192.size inb_S1x8192_S1x8192_0_0
/-- The 256 key rows on the diagonal of the point's queries. -/
abbrev rDiag (i : grid1.Coords) : Rect S8192x128 := Rect.unit (s := S8192x128) (k1_off1 i) S256x128.size (k1_off1_inb i)

/-! ## What the body stores, from the four input buffers' contents -/

section Stored
variable (i : grid1.Coords) (xq : Vec F S256x128 .bf16) (xk : Vec F S8192x128 .bf16) (xql : Vec F S256x1 .i32) (xkl : Vec F S1x8192 .i32)

/-- The loss column of the block of queries. -/
def lossVal : FVec F S256x1 .f32 :=
  k1_pay4 (k1_pay9 (View.ld xq rQ) (View.ld xk rK)) (k1_pay10 (View.ld xq rQ) (View.ld xk rK) (View.ld xql rCol) (View.ld xkl rRow))
    (k1_pay13 (View.ld xq rQ) (View.ld xk (rDiag i))) k1_pay14 k1_pay15
/-- The same-label similarity column without the diagonal. -/
def posVal : FVec F S256x1 .f32 :=
  k1_pay2 (k1_pay12 (View.ld xq rQ) (View.ld xk rK) (View.ld xql rCol) (View.ld xkl rRow))
    (k1_pay13 (View.ld xq rQ) (View.ld xk (rDiag i))) k1_pay14 k1_pay15
/-- The other-label similarity column. -/
def negVal : FVec F S256x1 .f32 :=
  k1_pay3 (k1_pay11 (View.ld xq rQ) (View.ld xk rK)) (k1_pay12 (View.ld xq rQ) (View.ld xk rK) (View.ld xql rCol) (View.ld xkl rRow))

def outLoss : Vec F S256x1 .f32 := View.canon [⟨rCol, lossVal i xq xk xql xkl⟩]
def outPos : Vec F S256x1 .f32 := View.canon [⟨rCol, posVal i xq xk xql xkl⟩]
def outNeg : Vec F S256x1 .f32 := View.canon [⟨rCol, negVal xq xk xql xkl⟩]
end Stored

/-- One store of the whole column covers the column. -/
theorem col_cover (p0 : Vec F S256x1 .f32) (y : S256x1.Idx) :
    ∃ pc ∈ ([⟨rCol, p0⟩] : List (View.Piece (Elt F) S256x1 .f32)), y ∈ pc.1.set :=
  View.cover_of_tiled [⟨rCol, p0⟩] S256x1.size (by rfl) y

set_option maxHeartbeats 4000000 in
/-- The body on whole staging buffers, the inputs' at given contents and the outputs' at anything: it runs to its end
    with the inputs' as they were and each output's at the column it stores. -/
theorem sound_kernel (c : Dev nD) (E : Set ℕ) (i : grid1.Coords)
    (arg1 : Memref sig .tc .vmem S256x128 .bf16) (harg1 : arg1.IsWhole) (arg2 : Memref sig .tc .vmem S8192x128 .bf16) (harg2 : arg2.IsWhole)
    (arg3 : Memref sig .tc .vmem S256x1 .i32) (harg3 : arg3.IsWhole) (arg4 : Memref sig .tc .vmem S1x8192 .i32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S256x1 .f32) (harg7 : arg7.IsWhole)
    (xq : Vec F S256x128 .bf16) (xk : Vec F S8192x128 .bf16) (xql : Vec F S256x1 .i32) (xkl : Vec F S1x8192 .i32) (K : PUnit → sProp 𝕄) :
    iprop(owns (c : Thread nD τ) arg1 fullShare xq ∗ owns (c : Thread nD τ) arg2 fullShare xk
        ∗ owns (c : Thread nD τ) arg3 fullShare xql ∗ owns (c : Thread nD τ) arg4 fullShare xkl
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare xq ∗ owns (c : Thread nD τ) arg2 fullShare xk
            ∗ owns (c : Thread nD τ) arg3 fullShare xql ∗ owns (c : Thread nD τ) arg4 fullShare xkl
            ∗ owns (c : Thread nD τ) arg5 fullShare (outLoss i xq xk xql xkl)
            ∗ owns (c : Thread nD τ) arg6 fullShare (outPos i xq xk xql xkl)
            ∗ owns (c : Thread nD τ) arg7 fullShare (outNeg xq xk xql xkl)) -∗ K ⟨⟩))
      ⊢ wp frame (wpE (defs₀ (F := F)) Variants.none c none) E
          (cc1__sim_kernel i arg1 harg1 arg2 harg2 arg3 harg3 arg4 harg4 arg5 harg5 arg6 harg6 arg7 harg7) K := by
  simp only [cc1__sim_kernel_eq_skeleton]; unfold cc1__sim_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (col_cover _)
  isplitl [H5]
  · iexists _; isplitr
    swap; · iexact H5
    ipureintro
    exact View.read_writes_eq_canon _ _ _ (col_cover _)
  iexists _; isplitr
  swap; · iexact H6
  ipureintro
  exact View.read_writes_eq_canon _ _ _ (col_cover _)

/-- The region's proof data on core `c`: the arrays as found; after the body each input's buffer at its block and
    each output's at the column the body stores there; the invariant is the scoped buffers no window stages and
    the generator register, untouched; nothing owed. The normalized array is read through two windows: each holds
    one half of the full share of it, every other array is held whole. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => outLoss (grid1.coords t) (blk V c 0 t) (blk V c 1 t) (blk V c 2 t) (blk V c 3 t)
    | ⟨5, _⟩ => outPos (grid1.coords t) (blk V c 0 t) (blk V c 1 t) (blk V c 2 t) (blk V c 3 t)
    | ⟨6, _⟩ => outNeg (blk V c 0 t) (blk V c 1 t) (blk V c 2 t) (blk V c 3 t)
  Φ _ := Pipeline.ΦA spec1 c
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]
theorem after_q (c : Dev nD) (t : Fin cfg1.N) : (dat V c).after 0 t = blk V c 0 t := by dsimp only [dat]
theorem after_k (c : Dev nD) (t : Fin cfg1.N) : (dat V c).after 1 t = blk V c 1 t := by dsimp only [dat]
theorem after_ql (c : Dev nD) (t : Fin cfg1.N) : (dat V c).after 2 t = blk V c 2 t := by dsimp only [dat]
theorem after_kl (c : Dev nD) (t : Fin cfg1.N) : (dat V c).after 3 t = blk V c 3 t := by dsimp only [dat]
theorem after_loss (c : Dev nD) (t : Fin cfg1.N) :
    (dat V c).after 4 t = outLoss (grid1.coords t) (blk V c 0 t) (blk V c 1 t) (blk V c 2 t) (blk V c 3 t) := by dsimp only [dat]
theorem after_pos (c : Dev nD) (t : Fin cfg1.N) :
    (dat V c).after 5 t = outPos (grid1.coords t) (blk V c 0 t) (blk V c 1 t) (blk V c 2 t) (blk V c 3 t) := by dsimp only [dat]
theorem after_neg (c : Dev nD) (t : Fin cfg1.N) :
    (dat V c).after 6 t = outNeg (blk V c 0 t) (blk V c 1 t) (blk V c 2 t) (blk V c 3 t) := by dsimp only [dat]

theorem before_q (c : Dev nD) (t : Fin cfg1.N) (d) : (dat V c).before 0 t d = blk V c 0 t :=
  before_q_of V (dat V c) (A_eq V c 0) (after_q V c) t d
theorem before_k (c : Dev nD) (t : Fin cfg1.N) (d) : (dat V c).before 1 t d = blk V c 1 t :=
  before_k_of V (dat V c) (A_eq V c 1) (after_k V c) t d
theorem before_ql (c : Dev nD) (t : Fin cfg1.N) (d) : (dat V c).before 2 t d = blk V c 2 t :=
  before_ql_of V (dat V c) (A_eq V c 2) (after_ql V c) t d
theorem before_kl (c : Dev nD) (t : Fin cfg1.N) (d) : (dat V c).before 3 t d = blk V c 3 t :=
  before_kl_of V (dat V c) (A_eq V c 3) (after_kl V c) t d

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_q, before_k, before_ql, before_kl]
  rw [show (dat V c).Φ t.succ = (dat V c).Φ t.castSucc from rfl,
    show (dat V c).owesAt () t.succ = (dat V c).owesAt () t.castSucc from rfl,
    after_q, after_k, after_ql, after_kl, after_loss, after_pos, after_neg]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation (c : Dev nD) : BodyObligation (dat (F := F) V c) (defs₀ (F := F)) Variants.none () Set.univ := fun t => by
  rw [bigSep_W1, bigSep_W1]
  exact sound_body V c t

end Cert.KernelIdeal.Sims

end
-- ==== Proof.WholeIdeal.lean ====
/-
  The whole program as four segments — the row-normalizing region, two host lines that lay the labels out as a
  column and as a row, the similarity region, the host lines that sum the three result columns and divide — and
  what every buffer holds at each boundary between them.

  Between segments the core holds every buffer that outlives a region at a named valuation: the launch memory; then
  the normalized array replaced by what the first region's write-backs leave; then the host lines applied; then the
  three result columns replaced by what the second region's write-backs leave; then the last host lines applied.
  The second region reads the normalized array through two windows; it is handed that buffer as two halves of the
  full share, one per window, and gives the two halves back joined, the contents unchanged.
-/
import proofs.«137735_j51797305589975_2_alg».proof.Proof.RowsRegionIdeal
import proofs.«137735_j51797305589975_2_alg».proof.Proof.SimsRegionIdeal
import proofs.«137735_j51797305589975_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (the first region's entry). -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b
/-- After the first region: its arrays at what its write-backs leave, every other buffer as launched. -/
def Wb (c : Dev nD) : Valuation τ sig (Elt F) :=
  Pipeline.withArrays spec0 c (Wa m ρ c) fun w => (Rows.dat (Va m ρ) c).arrAt w cfg0.N
theorem Wb_arr (c : Dev nD) (w : Fin cfg0.W) :
    Wb m ρ c (Proc.devRef .tc (Pipeline.arrRef spec0 w)) = (Rows.dat (Va m ρ) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m ρ c (Proc.devRef .tc b) = Wa m ρ c (Proc.devRef .tc b) := by
  unfold Wb; exact Pipeline.withArrays_of_ne spec0 c _ _ b hb
abbrev Vb : (c : Dev nD) → (b : Ref sig .tc) → Buf (Elt F) ((c : Thread nD τ).loc b) := fun c b => Wb m ρ c b
theorem Vb_arr (c : Dev nD) (w : Fin cfg0.W) : (Rows.dat (Va m ρ) c).arrAt w cfg0.N = Vb m ρ c (Pipeline.arrRef spec0 w) :=
  (Wb_arr m ρ c w).symm
theorem Vb_rest (c : Dev nD) : ∀ b, b ∉ Finset.univ.image (Pipeline.arrRef spec0) → Vb m ρ c b = Va m ρ c b :=
  fun b hb => Wb_of_ne m ρ c b fun w e => hb (Finset.mem_image.mpr ⟨w, Finset.mem_univ _, e⟩)

/-- After the two label-layout lines (the second region's entry). -/
abbrev Wc : Dev nD → Valuation τ sig (Elt F) := fun c => StableHlo.after hostOps1 (Wb m ρ c)
abbrev Vc : (c : Dev nD) → (b : Ref sig .tc) → Buf (Elt F) ((c : Thread nD τ).loc b) := fun c b => Wc m ρ c b

/-- The second region's three output windows, by themselves: their arrays are three distinct buffers. -/
abbrev outSpec : Fin 3 → Pipeline.WinSpec sig grid1.rank := fun | 0 => spec1 4 | 1 => spec1 5 | 2 => spec1 6 | ⟨_ + 3, h⟩ => absurd h (Nat.not_lt.2 (Nat.le_add_left _ _))
theorem outSpec_inj : Function.Injective (Pipeline.arrRef outSpec) := by decide
/-- What the second region's write-backs leave in each result column. -/
def outCols (c : Dev nD) : (k : Fin 3) → Buf (Elt F) ((outSpec k).arr.view.loc (c : Thread nD τ))
  | 0 => (Sims.dat (Vc m ρ) c).arrAt 4 cfg1.N
  | 1 => (Sims.dat (Vc m ρ) c).arrAt 5 cfg1.N
  | 2 => (Sims.dat (Vc m ρ) c).arrAt 6 cfg1.N
  | ⟨_ + 3, h⟩ => absurd h (Nat.not_lt.2 (Nat.le_add_left _ _))
/-- After the second region: the three result columns at what its write-backs leave, every other buffer as entered. -/
def Wd (c : Dev nD) : Valuation τ sig (Elt F) := Pipeline.withArrays outSpec c (Wc m ρ c) (outCols m ρ c)
theorem Wd_col (c : Dev nD) (k : Fin 3) : Wd m ρ c (Proc.devRef .tc (Pipeline.arrRef outSpec k)) = outCols m ρ c k := by
  unfold Wd; exact Pipeline.withArrays_arr outSpec outSpec_inj c _ _ k
theorem Wd_of_ne (c : Dev nD) (b : Ref sig .tc) (hb : ∀ k, Pipeline.arrRef outSpec k ≠ b) :
    Wd m ρ c (Proc.devRef .tc b) = Wc m ρ c (Proc.devRef .tc b) := by
  unfold Wd; exact Pipeline.withArrays_of_ne outSpec c _ _ b hb
abbrev Vd : (c : Dev nD) → (b : Ref sig .tc) → Buf (Elt F) ((c : Thread nD τ).loc b) := fun c b => Wd m ρ c b
/-- After the last host lines: the program's end. -/
abbrev We : Dev nD → Valuation τ sig (Elt F) := fun c => StableHlo.after hostOps2 (Wd m ρ c)

/-! ## The proof data family and what rides along -/

abbrev tables : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) tables p) c
  | ⟨0, _⟩ => fun c => Rows.dat (Va m ρ) c
  | ⟨1, _⟩ => fun c => Sims.dat (Vc m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (We m ρ c) ∗ ∃ r, prngReg c r)

/-! ## The normalized array dealt to the second region's two windows, and taken back -/

section Deal
variable (V' V : (c : Dev nD) → (b : Ref sig .tc) → Buf (Elt F) ((c : Thread nD τ).loc b))

/-- The second region's arrays at contents read off a valuation `V`, window by window: the normalized array twice, at
    the two halves of the full share, and the five other arrays whole. -/
theorem arrays_chain (c : Dev nD) (G : (w : Fin cfg1.W) → Buf (Elt F) ((cfg1.win w).arr.view.loc (c : Thread nD τ)))
    (hG : ∀ w, G w = V c (Pipeline.arrRef spec1 w)) :
    ((Sims.dat V' c).arrays G : sProp 𝕄)
      = iprop((((c : Thread nD τ).loc main_v0) ↦{fullShare.left} V c main_v0) ∗ (((c : Thread nD τ).loc main_v0) ↦{fullShare.right} V c main_v0)
          ∗ (((c : Thread nD τ).loc main_v1) ↦{fullShare} V c main_v1) ∗ (((c : Thread nD τ).loc main_v2) ↦{fullShare} V c main_v2)
          ∗ (((c : Thread nD τ).loc main_v3_0) ↦{fullShare} V c main_v3_0) ∗ (((c : Thread nD τ).loc main_v3_1) ↦{fullShare} V c main_v3_1)
          ∗ (((c : Thread nD τ).loc main_v3_2) ↦{fullShare} V c main_v3_2)) := by
  obtain rfl : G = fun w => V c (Pipeline.arrRef spec1 w) := funext hG
  unfold Dat.arrays
  rw [bigSep_W1, (arr_whole1 0).set_eq_univ, (arr_whole1 2).set_eq_univ, (arr_whole1 3).set_eq_univ,
    (arr_whole1 4).set_eq_univ, (arr_whole1 5).set_eq_univ, (arr_whole1 6).set_eq_univ]
  rfl

/-- The distinct buffers behind the second region's arrays, listed. -/
theorem arrBufs_chain (c : Dev nD) :
    (Pipeline.arrBufs (Ix := Unit) (Name := ℕ) (U := UR sig nD τ) (Lvl := ℕ) spec1 c (V c) : sProp 𝕄)
      = iprop((((c : Thread nD τ).loc main_v0) ↦{fullShare} V c main_v0)
          ∗ (((c : Thread nD τ).loc main_v1) ↦{fullShare} V c main_v1) ∗ (((c : Thread nD τ).loc main_v2) ↦{fullShare} V c main_v2)
          ∗ (((c : Thread nD τ).loc main_v3_0) ↦{fullShare} V c main_v3_0) ∗ (((c : Thread nD τ).loc main_v3_1) ↦{fullShare} V c main_v3_1)
          ∗ (((c : Thread nD τ).loc main_v3_2) ↦{fullShare} V c main_v3_2)) := by
  unfold Pipeline.arrBufs
  exact bigSep_eq_bigSepL_of_eq [main_v0, main_v1, main_v2, main_v3_0, main_v3_1, main_v3_2] (by decide) (by decide) _

/-- ENTRY: the buffers whole become the arrays, the normalized array's full share split in two. -/
theorem deal_in (c : Dev nD) (G : (w : Fin cfg1.W) → Buf (Elt F) ((cfg1.win w).arr.view.loc (c : Thread nD τ)))
    (hG : ∀ w, G w = V c (Pipeline.arrRef spec1 w)) :
    (Pipeline.arrBufs (Ix := Unit) (Name := ℕ) (U := UR sig nD τ) (Lvl := ℕ) spec1 c (V c) : sProp 𝕄) ⊢ (Sims.dat V' c).arrays G := by
  rw [arrays_chain V' V c G hG, arrBufs_chain V c]
  iintro ⟨H0, H1, H2, H3, H4, H5⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  isplitl [H2]; · iexact H2
  isplitl [H3]; · iexact H3
  isplitl [H4]; · iexact H4
  iexact H5

/-- EXIT: the arrays become the buffers whole again, the two halves joined. -/
theorem deal_out (c : Dev nD) (G : (w : Fin cfg1.W) → Buf (Elt F) ((cfg1.win w).arr.view.loc (c : Thread nD τ)))
    (hG : ∀ w, G w = V c (Pipeline.arrRef spec1 w)) :
    ((Sims.dat V' c).arrays G : sProp 𝕄) ⊢ Pipeline.arrBufs (Ix := Unit) (Name := ℕ) (U := UR sig nD τ) (Lvl := ℕ) spec1 c (V c) := by
  rw [arrays_chain V' V c G hG, arrBufs_chain V c]
  iintro ⟨Hl, Hr, H1, H2, H3, H4, H5⟩
  ihave H0 := (pointsTo_share (PosShare.mem_left_op_right fullShare)).2 $$ [Hl Hr]
  · isplitl [Hl]; · iexact Hl
    iexact Hr
  isplitl [H0]; · iexact H0
  isplitl [H1]; · iexact H1
  isplitl [H2]; · iexact H2
  isplitl [H3]; · iexact H3
  isplitl [H4]; · iexact H4
  iexact H5

end Deal

/-! ## The regions as segments -/

set_option backward.isDefEq.respectTransparency.types false in
/-- The row-normalizing region: entered with every long-lived buffer at the launch contents, left with them at
    `Wb`. Its two arrays are split out of the buffers at entry and put back at exit; the generator register goes into
    the region's invariant and comes back; nothing is owed; the kernel names no semaphore of its own. -/
def regRows : Pipeline.RegionSeg (pcfgs (F := F)) tables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Rows.body_obligation (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (Vb_arr m ρ c) (Vb_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the second region's exit each of its arrays holds what `Wd` says: an input what it held at entry, a result
    column what the write-backs leave. -/
theorem Vd_arr (c : Dev nD) : ∀ w : Fin cfg1.W, (Sims.dat (Vc m ρ) c).arrAt w cfg1.N = Vd m ρ c (Pipeline.arrRef spec1 w)
  | 0 => ((Sims.dat (Vc m ρ) c).arrAt_in 0 rfl _).trans ((Sims.A_eq (Vc m ρ) c 0).trans (Wd_of_ne m ρ c main_v0 (by decide)).symm)
  | 1 => ((Sims.dat (Vc m ρ) c).arrAt_in 1 rfl _).trans ((Sims.A_eq (Vc m ρ) c 1).trans (Wd_of_ne m ρ c main_v0 (by decide)).symm)
  | 2 => ((Sims.dat (Vc m ρ) c).arrAt_in 2 rfl _).trans ((Sims.A_eq (Vc m ρ) c 2).trans (Wd_of_ne m ρ c main_v1 (by decide)).symm)
  | 3 => ((Sims.dat (Vc m ρ) c).arrAt_in 3 rfl _).trans ((Sims.A_eq (Vc m ρ) c 3).trans (Wd_of_ne m ρ c main_v2 (by decide)).symm)
  | 4 => (Wd_col m ρ c 0).symm
  | 5 => (Wd_col m ρ c 1).symm
  | 6 => (Wd_col m ρ c 2).symm
  | ⟨_ + 7, h⟩ => absurd h (Nat.not_lt.2 (Nat.le_add_left _ _))
theorem Vd_rest (c : Dev nD) : ∀ b, b ∉ Finset.univ.image (Pipeline.arrRef spec1) → Vd m ρ c b = Vc m ρ c b :=
  fun b hb => Wd_of_ne m ρ c b fun k e => hb (Finset.mem_image.mpr (by
    revert e; revert k
    exact fun
      | 0 => fun e => ⟨4, Finset.mem_univ _, e⟩
      | 1 => fun e => ⟨5, Finset.mem_univ _, e⟩
      | 2 => fun e => ⟨6, Finset.mem_univ _, e⟩
      | ⟨_ + 3, h⟩ => absurd h (Nat.not_lt.2 (Nat.le_add_left _ _))))

set_option backward.isDefEq.respectTransparency.types false in
/-- The similarity region: entered with every long-lived buffer at `Wc`, left with them at `Wd`. The buffers
    behind its arrays are split out at entry, the normalized array's share dealt to its two windows, and joined and
    put back at exit. -/
def regSims : Pipeline.RegionSeg (pcfgs (F := F)) tables (pdats m ρ) () defs₀ 𝒱₀ L lv 1 where
  win := winFacts₀1
  block_pos := block_pos1
  stage_whole := stage_whole1
  K := PEmpty
  osem k := k.elim
  ho := Pipeline.OwnSemFacts.none _
  hbody c := (Sims.body_obligation (Vc m ρ) c).loose
  hwaits := Pipeline.hwaits_of_owed_zero _ _ _ _ L lv 1 fun _ _ => rfl
  pre c := iprop(StableHlo.held (c : Thread nD τ) (Pipeline.ucRefs τ sig) (Wc m ρ c) ∗ R c)
  post c := iprop(StableHlo.held (c : Thread nD τ) (Pipeline.ucRefs τ sig) (Wd m ρ c) ∗ R c)
  X c := iprop(∃ r, prngReg c r)
  Y c := iprop(∃ r, prngReg c r)
  Z c := Pipeline.unscopedRest (Ix := Unit) (Name := ℕ) (U := UR sig nD τ) (Lvl := ℕ) spec1 c (Vc m ρ c)
  hentry c := by
    rw [Pipeline.ownSems0_none]
    have hsplit : (unscopedBufs (Ix := Unit) (Name := ℕ) (U := UR sig nD τ) (Lvl := ℕ) c (Vc m ρ c) : sProp 𝕄)
        ⊢ iprop((pdats m ρ 1 c).arrays ((pdats m ρ 1 c).arrAt · 0) ∗ Pipeline.unscopedRest spec1 c (Vc m ρ c)) := by
      rw [Pipeline.unscopedBufs_split₀ (Pipeline.pin (pcfgs (F := F)) tables) 1 winFacts₀1.arr_unscoped c (Vc m ρ c)]
      exact sep_mono (deal_in (Vc m ρ) (Vc m ρ) c _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (Vc m ρ c))
        ⊢ (unscopedBufs (Ix := Unit) (Name := ℕ) (U := UR sig nD τ) (Lvl := ℕ) c (Vd m ρ c) : sProp 𝕄) := by
      rw [Pipeline.unscopedBufs_split₀ (Pipeline.pin (pcfgs (F := F)) tables) 1 winFacts₀1.arr_unscoped c (Vd m ρ c)]
      refine sep_mono (deal_out (Vc m ρ) (Vd m ρ) c _ (Vd_arr m ρ c)) (Entails.of_eq ?_)
      unfold Pipeline.unscopedRest
      exact bigSep_congr fun b hb => by rw [Vd_rest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

/-- The last host segment's end is the program's end, the generator register regrouped with the buffers. -/
theorem last_step (c : Dev nD) :
    iprop(StableHlo.held (c : Thread nD τ) (Pipeline.ucRefs τ sig) (We m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

abbrev parts : List (Pipeline.Seg (pcfgs (F := F)) tables (pdats m ρ) () defs₀ 𝒱₀ L lv) :=
  [ .region (regRows m ρ),
    .host (hseg hostOps1 hostOps1_sub hostOps1_fresh (Wb m ρ)),
    .region (regSims m ρ),
    .host (hseg hostOps2 hostOps2_sub hostOps2_fresh (Wd m ρ)) ]
theorem main_run (c : Dev nD) : main (F := F) c = Pipeline.Seg.run (parts m ρ) := (main_chain c).trans (by chain_rfl)

set_option backward.isDefEq.respectTransparency.types false in
/-- THE RUN: from any memory with zero counters every weakly fair execution of the program terminates, nothing
    faulting, and at the end every long-lived buffer holds what the end valuation `We` says. -/
theorem run : θ_run defs (onTc (τ := τ) (main (F := F))) ⟨m, fun _ => 0, ρ⟩ (fun r => ∀ c : Dev nD,
      ∀ b ∈ Pipeline.ucRefs τ sig, r.2.mem (((c : Thread nD τ)).1, b) = We m ρ c b) :=
  Pipeline.θ_run_regions_kit (pcfgs (F := F)) tables (pdats m ρ) () cellOf_inj emb₁ defs₀ 𝒱₀ L lv m ρ main (parts m ρ)
    (fun c Q => by rw [main_run m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tₙ m ρ)
    (hch := ⟨fun _ => .rfl, fun _ => .rfl, fun _ => .rfl, fun _ => .rfl, fun c => last_step m ρ c⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h c => h c)

/-! ## The arguments end as launched -/

/-- No host line and no region writes the feature array: the first region reads it through an input window. -/
theorem We_main_arg0 (c : Dev nD) : We m ρ c (Proc.devRef .tc main_arg0) = m ((c : Thread nD τ).loc main_arg0) :=
  calc We m ρ c (Proc.devRef .tc main_arg0)
    _ = Wd m ρ c (Proc.devRef .tc main_arg0) := StableHlo.after_of_writes_sub hostOps2 _ hostOps2_writes (r := main_arg0) (by decide)
    _ = Wc m ρ c (Proc.devRef .tc main_arg0) := Wd_of_ne m ρ c main_arg0 (by decide)
    _ = Wb m ρ c (Proc.devRef .tc main_arg0) := StableHlo.after_of_writes_sub hostOps1 _ hostOps1_writes (r := main_arg0) (by decide)
    _ = Wa m ρ c (Proc.devRef .tc main_arg0) := (Wb_arr m ρ c 0).trans (((Rows.dat (Va m ρ) c).arrAt_in 0 rfl _).trans (Rows.A_eq (Va m ρ) c 0))
    _ = m ((c : Thread nD τ).loc main_arg0) := rfl
/-- Nor the label array: the host lines only read it. -/
theorem We_main_arg1 (c : Dev nD) : We m ρ c (Proc.devRef .tc main_arg1) = m ((c : Thread nD τ).loc main_arg1) :=
  calc We m ρ c (Proc.devRef .tc main_arg1)
    _ = Wd m ρ c (Proc.devRef .tc main_arg1) := StableHlo.after_of_writes_sub hostOps2 _ hostOps2_writes (r := main_arg1) (by decide)
    _ = Wc m ρ c (Proc.devRef .tc main_arg1) := Wd_of_ne m ρ c main_arg1 (by decide)
    _ = Wb m ρ c (Proc.devRef .tc main_arg1) := StableHlo.after_of_writes_sub hostOps1 _ hostOps1_writes (r := main_arg1) (by decide)
    _ = Wa m ρ c (Proc.devRef .tc main_arg1) := Wb_of_ne m ρ c main_arg1 (by decide)
    _ = m ((c : Thread nD τ).loc main_arg1) := rfl

/-- THE FRAME: the program runs to its end, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (We_main_arg0 m ρ c), (h c _ (mem_uc main_arg1 (by decide))).trans (We_main_arg1 m ρ c)⟩)
    (run m ρ)

end Cert.KernelIdeal.Whole

end
-- ==== Proof.Spec.lean ====
/-
  The mathematics both programs compute, stated once over plain index functions on the extended reals.

  Data: a feature matrix `x : Fin 8192 → Fin 128 → EReal` and one 32-bit label per row.
  Every row is scaled to unit length, `u i = x i / max ‖x i‖ ε₁₂`; the similarity of rows `i`, `j` is the
  inner product `s i j = ⟨u i, u j⟩`; its weight is `e i j = exp (2 · s i j)`.

  The kernel works one query row at a time against all key rows. For a query row `q` with label `ql`, keys `k`
  with labels `kl`, and the key row `kd` that sits on the diagonal, it forms the four row sums
  (all weights, same-label weights, all similarities, same-label similarities), takes the diagonal term away from
  the same-label sums and the same-label sums away from the totals:
      num = Σ_{same} e − e_diag,   den = Σ e − Σ_{same} e,
      pos = Σ_{same} s − s_diag,   neg = Σ s − Σ_{same} s.
  The reference instead multiplies by 0/1 masks: `mPos i j = 1` iff the labels agree and `i ≠ j`,
  `mNeg i j = 1` iff the labels differ.  On real (finite) data the two arrangements are the same numbers, because a
  finite term may be cancelled from a finite sum; at an infinity that cancellation fails, which is why the
  equality is proved under finiteness only.
-/
import Idealize.ShloMosaic.PureOps.Ideal

noncomputable section

namespace Cert.SupCon

open Idealize.ShloMosaic

/-- The floor under a row's length, the f32 nearest to 1e-12. -/
def eps12 : EReal := Ideal.ofBits .f32 0x2B8CBCCC#32
/-- The term added to the numerator, the f32 nearest to 1e-8. -/
def eps8 : EReal := Ideal.ofBits .f32 0x322BCC77#32
/-- The kernel's inverse temperature, 2. -/
def two : EReal := Ideal.ofBits .f32 0x40000000#32
/-- The reference's temperature, 1/2. -/
def half : EReal := Ideal.ofBits .f32 0x3F000000#32
/-- The number of rows, 8192, and its square, 2^26, as floats. -/
def c8192 : EReal := Ideal.ofBits .f32 0x46000000#32
def c2p26 : EReal := Ideal.ofBits .f32 0x4C800000#32

/-! ## One row scaled to unit length -/

/-- Entry `d` of a row `v` divided by the row's length, the length floored at `eps12`. -/
def unitRow (v : Fin 128 → EReal) (d : Fin 128) : EReal :=
  Ideal.div (v d) (max (Ideal.sqrt (∑ k : Fin 128, v k * v k)) eps12)

/-- The unit rows of a matrix. -/
def unit (x : Fin 8192 → Fin 128 → EReal) (i : Fin 8192) (d : Fin 128) : EReal := unitRow (x i) d

/-- The inner product of two rows. -/
def dot (a b : Fin 128 → EReal) : EReal := ∑ d : Fin 128, a d * b d

/-! ## The kernel's arrangement, one query row against all keys -/

section Row
variable (q : Fin 128 → EReal) (k : Fin 8192 → Fin 128 → EReal) (ql : BitVec 32) (kl : Fin 8192 → BitVec 32)
  (kd : Fin 128 → EReal)

/-- The weight of key `j`: `exp (s · 2)`. -/
def wK (j : Fin 8192) : EReal := Ideal.exp (dot q (k j) * two)
def sumAllW : EReal := ∑ j : Fin 8192, wK q k j
def sumEqW : EReal := ∑ j : Fin 8192, if ql = kl j then wK q k j else 0
def sumAllS : EReal := ∑ j : Fin 8192, dot q (k j)
def sumEqS : EReal := ∑ j : Fin 8192, if ql = kl j then dot q (k j) else 0
/-- same-label weights without the diagonal; -/
def numRow : EReal := sumEqW q k ql kl - Ideal.exp (dot q kd * two)
/-- other-label weights. -/
def denRow : EReal := sumAllW q k - sumEqW q k ql kl
/-- The three numbers the kernel stores for the row. -/
def rowLoss : EReal := 0 - Ideal.log (Ideal.div (numRow q k ql kl kd + eps8) (denRow q k ql kl + numRow q k ql kl kd))
def rowPos : EReal := sumEqS q k ql kl - dot q kd
def rowNeg : EReal := sumAllS q k - sumEqS q k ql kl
end Row

section Whole
variable (x : Fin 8192 → Fin 128 → EReal) (lab : Fin 8192 → BitVec 32)

/-- The kernel's three results: row `i` is the query, every unit row a key, the diagonal key row `i` itself. -/
def lossK : EReal := Ideal.div (∑ i : Fin 8192, rowLoss (unit x i) (unit x) (lab i) lab (unit x i)) c8192
def posK : EReal := Ideal.div (∑ i : Fin 8192, rowPos (unit x i) (unit x) (lab i) lab (unit x i)) c2p26
def negK : EReal := Ideal.div (∑ i : Fin 8192, rowNeg (unit x i) (unit x) (lab i) lab) c2p26

/-! ## The reference's arrangement: 0/1 masks -/

def simR (i j : Fin 8192) : EReal := dot (unit x i) (unit x j)
/-- The reference's weight: `exp (s / (1/2))`. -/
def wR (i j : Fin 8192) : EReal := Ideal.exp (Ideal.div (simR x i j) half)
def mPos (i j : Fin 8192) : EReal := if lab i = lab j ∧ i ≠ j then 1 else 0
def mNeg (i j : Fin 8192) : EReal := if lab i = lab j then 0 else 1
def numR (i : Fin 8192) : EReal := ∑ j : Fin 8192, mPos lab i j * wR x i j
def denR (i : Fin 8192) : EReal := ∑ j : Fin 8192, mNeg lab i j * wR x i j
def lossR : EReal :=
  Ideal.div (∑ i : Fin 8192, - Ideal.log (Ideal.div (numR x lab i + eps8) (denR x lab i + numR x lab i))) c8192
def posR : EReal := Ideal.div (∑ i : Fin 8192, ∑ j : Fin 8192, simR x i j * mPos lab i j) c2p26
def negR : EReal := Ideal.div (∑ i : Fin 8192, ∑ j : Fin 8192, simR x i j * mNeg lab i j) c2p26

end Whole

end Cert.SupCon

end
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.LibLaneSum.lean ====
/-
  A sum along the second axis of a matrix, read at a row.

  Reducing an [a, b] array by addition along its second axis leaves one number per row, a vector of shape [a].  On the
  extended reals the entry at row r is the plain sum of the b entries of that row: the reduced index r with the
  coordinate k put back on the second axis is the matrix index (r, k).  It holds for any extents a and b and any
  float format.
-/
import Idealize.ShloMosaic.PureOps.Ideal.Laws
import Idealize.ShloMosaic.Lib.ValueIdx

open scoped BigOperators

namespace Cert.Lib.LaneSum

open Idealize.ShloMosaic Idealize.ShloMosaic.ValueIdx

/-- The sum along the second axis of an [a, b] array, read at row r, is the sum over k of the array at (r, k). -/
theorem laneSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] (⟨1, ![a]⟩ : Shape) src acc h hφ hacc (ix1 r) = ∑ k : Fin b, src (ix2 r k) := by
  refine (Ideal.multiReduction_add_single src acc h hφ hacc (ix1 r)).trans ?_
  show ∑ k : Fin b, src (h.lift (ix1 r) k) = _
  refine Finset.sum_congr rfl fun k _ => congrArg src ?_
  funext c
  match c with
  | ⟨0, _⟩ => rfl
  | ⟨1, _⟩ => rfl

end Cert.Lib.LaneSum
-- ==== Proof.KernelValue0.lean ====
/-
  The normalizing kernel's block, entry by entry.

  One block holds 1024 rows of 128 numbers.  The body squares every entry, adds the squares along each row, takes
  the square root, floors that length at the small constant eps12, repeats the floored length along the row and
  divides every entry by it; the final change of float format is the identity on the extended reals.  So the entry
  (r, d) of the result depends on row r only: it is that row's entry d divided by the row's floored length, which is
  the specification's `unitRow` of the row.
-/
import proofs.«137735_j51797305589975_2_alg».proof.Proof.Gen.KernelIdeal.Skeleton
import proofs.«137735_j51797305589975_2_alg».proof.Proof.Spec
import proofs.«137735_j51797305589975_2_alg».proof.Proof.LibColumnLayout
import proofs.«137735_j51797305589975_2_alg».proof.Proof.LibLaneSum
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.KValue

open Idealize.ShloMosaic Idealize.ShloMosaic.ValueIdx Cert.KernelIdeal Cert.KernelIdeal.Gen Cert.SupCon

/-- Entry (r, d) of the normalized block is row r's entry d over the row's length floored at eps12. -/
theorem norm_at (v0 : Vec Ideal S1024x128 .f32) (r : Fin 1024) (d : Fin 128) :
    Gen.k0_pay1 (F := Ideal) v0 (ix2 r d) = unitRow (fun k : Fin 128 => v0 (ix2 r k)) d := by
  unfold Gen.k0_pay1 unitRow
  dsimp only
  -- the quotient's numerator is the entry itself; what is left is the denominator
  refine congrArg (Ideal.div (v0 (ix2 r d))) ?_
  -- the repeated column at (r, d) is the column at (r, 0)
  refine (Cert.Lib.ColumnLayout.broadcastTo_a1_ab_apply _ broadcasts_S1024x1_S1024x128 r d 0).trans ?_
  -- the floor is the same constant on both sides; under the square root is the row's sum of squares
  refine congrArg₂ max (congrArg Ideal.sqrt ?_) rfl
  refine (Cert.Lib.ColumnLayout.shapeCast_a_a1_apply _ shapeCasts_S1024_S1024x1 r 0).trans ?_
  exact Cert.Lib.LaneSum.laneSum_apply (mulf v0 v0) _ _ _ _ r

end Cert.KernelIdeal.KValue

end
-- ==== Proof.RowsValue.lean ====
/-
  The normalized array as one function of the feature array.

  The row-normalizing region runs over 8 grid points.  Point t reads rows 1024·t … 1024·t + 1023 of the feature
  array (128 numbers each) and writes back the same rows of the normalized array, each row divided by its own
  length floored at eps12.  Entry (r, d) of the block written at point t depends on row r of the block read there
  only, and that row is row 1024·t + r of the feature array: so what point t writes back is block t of ONE function
  of the whole feature array, "row i divided by its floored length".  Every row i lies in exactly the block of point
  i / 1024, so the eight blocks cover the array and after the last write-back the array is that function.
-/
import proofs.«137735_j51797305589975_2_alg».proof.Proof.RowsRegionIdeal
import proofs.«137735_j51797305589975_2_alg».proof.Proof.KernelValue0
import proofs.«137735_j51797305589975_2_alg».proof.Proof.Spec
import Idealize.ShloMosaic.Lib.Pipeline.Value
import Idealize.ShloMosaic.Lib.ValueIdx

noncomputable section

namespace Cert.KernelIdeal.RowsValue

open Cert.KernelIdeal Cert.KernelIdeal.Gen Idealize.ShloMosaic Idealize.ShloMosaic.TcCoe Idealize.ShloMosaic.ValueIdx
open Idealize.ShloMosaic.Pipeline (Dat)

/-- Every offset of the one whole-block rectangle is zero. -/
theorem offsets_zero : (![0, 0] : Fin 2 → Nat) = fun _ => 0 := funext fun a => by fin_cases a <;> rfl

/-- The normalized array: entry (i, d) is row i of the feature array divided by that row's floored length. -/
def unitRows (x : S8192x128.Idx → EReal) : S8192x128.Idx → EReal :=
  fun idx => Cert.SupCon.unitRow (fun k : Fin 128 => x (ix2 (idx 0 : Fin 8192) k)) (idx 1 : Fin 128)

/-- At coordinates (i, d) it is the specification's unit row of row i, entry d. -/
theorem unitRows_apply (x : S8192x128.Idx → EReal) (i : Fin 8192) (d : Fin 128) :
    unitRows x (ix2 i d) = Cert.SupCon.unitRow (fun k : Fin 128 => x (ix2 i k)) d := rfl

/-- Both windows move down the rows with the grid point and never sideways. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- One entry of a normalized block whose row r is row i of the array x is the array's normalized entry (i, d). -/
theorem block_entry (x : S8192x128.Idx → EReal) (x0 : Vec Ideal S1024x128 .f32) (r : Fin 1024) (d : Fin 128) (i : Fin 8192)
    (hrow : ∀ k : Fin 128, x0 (ix2 r k) = x (ix2 i k)) :
    k0_pay1 (F := Ideal) x0 (ix2 r d) = unitRows x (ix2 i d) := by
  rw [Cert.KernelIdeal.KValue.norm_at, unitRows_apply]
  exact congrArg (fun v => Cert.SupCon.unitRow v d) (funext hrow)

variable (V : (c : Dev nD) → (b : Ref sig .tc) → Buf (Elt Ideal) ((c : Thread nD τ).loc b))

/-- Entry (r, k) of the input block at point t sits at row 1024·t + r, column k of the feature array. -/
theorem in_emb (t : Fin cfg0.N) (r : Fin 1024) (k : Fin 128) (i : Fin 8192) (hi : i.val = t.val * 1024 + r.val) :
    ((cfg0.win 0).blk t).view.emb (ix2 r k) = ix2 i k := by
  obtain ⟨e0, e1, -, -⟩ := index_facts t
  funext a; apply Fin.ext
  match a with
  | ⟨0, _⟩ => show win0_0.index t (0 : Fin 2) * 1024 + 1 * r.val = i.val; omega
  | ⟨1, _⟩ => show win0_0.index t (1 : Fin 2) * 128 + 1 * k.val = k.val; omega

/-- Entry (r, d) of the output block at point t sits at row 1024·t + r, column d of the normalized array. -/
theorem out_emb (t : Fin cfg0.N) (r : Fin 1024) (d : Fin 128) (i : Fin 8192) (hi : i.val = t.val * 1024 + r.val) :
    ((cfg0.win 1).blk t).view.emb (ix2 r d) = ix2 i d := by
  obtain ⟨-, -, e0, e1⟩ := index_facts t
  funext a; apply Fin.ext
  match a with
  | ⟨0, _⟩ => show win0_1.index t (0 : Fin 2) * 1024 + 1 * r.val = i.val; omega
  | ⟨1, _⟩ => show win0_1.index t (1 : Fin 2) * 128 + 1 * d.val = d.val; omega

/-- Row r of the input block at point t is row 1024·t + r of the feature array. -/
theorem in_row (c : Dev nD) (t : Fin cfg0.N) (r : Fin 1024) (i : Fin 8192) (hi : i.val = t.val * 1024 + r.val) (k : Fin 128) :
    (Rows.blk V c 0 t : Vec Ideal S1024x128 .f32) (ix2 r k) = (V c main_arg0 : S8192x128.Idx → EReal) (ix2 i k) := by
  unfold Rows.blk
  rw [View.read_apply]
  show V c main_arg0 (((cfg0.win 0).blk t).view.emb (ix2 r k)) = V c main_arg0 (ix2 i k)
  rw [in_emb t r k i hi]

/-- What point t writes back is block t of the normalized array of the feature array as the region finds it. -/
theorem flushed_eq (c : Dev nD) (t : Fin cfg0.N) :
    (Rows.dat (F := Ideal) V c).flushed 1 t = ((cfg0.win 1).blk t).view.read (Elt Ideal) (unitRows (V c main_arg0)) := by
  show (cfg0.win 1).cut (grid0.coords t) ((Rows.dat V c).after 1 t) = _
  rw [Rows.after_out]
  unfold Rows.outRows
  rw [View.canon_unit_zero offsets_zero]
  simp only [View.ld_unit_zero (S := S1024x128) offsets_zero]
  funext y
  obtain ⟨r, d, rfl⟩ : ∃ (r : Fin 1024) (d : Fin 128), y = ix2 r d := ⟨y 0, y 1, eq_ix2 y⟩
  have hN : cfg0.N = 8 := N_0
  have ht : t.val < 8 := hN ▸ t.isLt
  have hi : t.val * 1024 + r.val < 8192 := by have := r.isLt; omega
  show k0_pay1 (F := Ideal) (Rows.blk V c 0 t) (ix2 r d)
    = unitRows (V c main_arg0) (((cfg0.win 1).blk t).view.emb (ix2 r d))
  rw [out_emb t r d ⟨t.val * 1024 + r.val, hi⟩ rfl]
  exact block_entry (V c main_arg0) (Rows.blk V c 0 t) r d ⟨t.val * 1024 + r.val, hi⟩
    (in_row V c t r ⟨t.val * 1024 + r.val, hi⟩ rfl)

/-- An index of the array is in point t's block iff each coordinate is in the block's range on its axis. -/
theorem mem_blk (t : Fin cfg0.N) (i : S8192x128.Idx) :
    i ∈ ((cfg0.win 1).blk t).view.set ↔ ∀ a : Fin 2, win0_1.index t a * S1024x128.size a ≤ (i a).val ∧ (i a).val < win0_1.index t a * S1024x128.size a + S1024x128.size a := by
  show i ∈ ((View.whole main_v0).slice (win0_1.rect t)).set ↔ _
  rw [View.set_slice_whole, Rect.mem_set_unit]
  exact Iff.rfl

/-- Row i lies in the block of point i / 1024: the eight blocks cover the array. -/
theorem cover (i : S8192x128.Idx) :
    ∃ t : Fin cfg0.N, (cfg0.win 1).flush t = true ∧ i ∈ ((cfg0.win 1).blk t).view.set := by
  have hN : cfg0.N = 8 := N_0
  have hi0 : (i 0).val < 8192 := idx2_lt0 i
  have hi1 : (i 1).val < 128 := idx2_lt1 i
  refine ⟨⟨(i 0).val / 1024, by rw [hN]; omega⟩, flush0_1 _, ?_⟩
  rw [mem_blk]
  obtain ⟨-, -, e0, e1⟩ := index_facts ⟨(i 0).val / 1024, by rw [hN]; omega⟩
  intro a
  match a with
  | ⟨0, _⟩ =>
    show win0_1.index _ (0 : Fin 2) * 1024 ≤ (i 0).val ∧ (i 0).val < win0_1.index _ (0 : Fin 2) * 1024 + 1024
    rw [e0]; show (i 0).val / 1024 * 1024 ≤ (i 0).val ∧ (i 0).val < (i 0).val / 1024 * 1024 + 1024; omega
  | ⟨1, _⟩ =>
    show win0_1.index _ (1 : Fin 2) * 128 ≤ (i 1).val ∧ (i 1).val < win0_1.index _ (1 : Fin 2) * 128 + 128
    rw [e1]; omega

/-- After the last write-back the output array is the normalized array of the feature array. -/
theorem rows_array (c : Dev nD) : (Rows.dat (F := Ideal) V c).arrAt 1 cfg0.N = unitRows (V c main_arg0) :=
  (Rows.dat (F := Ideal) V c).arrAt_eq_of_cover 1 (unitRows (V c main_arg0)) (fun t _ => flushed_eq V c t) cover

/-- Entry (i, d) of the output array after the region: row i of the feature array, entry d, over the row's floored length. -/
theorem rows_final (c : Dev nD) (i : Fin 8192) (d : Fin 128) :
    (Rows.dat (F := Ideal) V c).arrAt 1 cfg0.N (ix2 i d) = Cert.SupCon.unitRow (fun k : Fin 128 => V c main_arg0 (ix2 i k)) d :=
  (congrFun (rows_array V c) (ix2 i d)).trans (unitRows_apply (V c main_arg0) i d)

end Cert.KernelIdeal.RowsValue

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«137735_j51797305589975_2_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.KernelValue1.lean ====
/-
  The similarity kernel's block, the entries that are read one at a time.

  One block pairs 256 query rows with all 8192 key rows, each row 128 numbers long.  The matrix product of the
  queries with the transposed keys has, at (r, j), the inner product of query row r and key row j; the same product
  against the 256 key rows that sit on the block's diagonal has, at (r, c), the inner product of query row r and
  diagonal row c.  The label mask at (r, j) is the one-bit word saying whether query r's label equals key j's label.
  The diagonal mask at (r, c) compares the two coordinates as 32-bit words, and since both are below 256 the words are
  equal exactly when r = c; summing the masked product along a row therefore leaves the single term at c = r, the
  inner product of query row r with its own diagonal row.  The weight at (r, j) is the exponential of twice the
  similarity.
-/
import proofs.«137735_j51797305589975_2_alg».proof.Proof.Gen.KernelIdeal.Skeleton
import proofs.«137735_j51797305589975_2_alg».proof.Proof.Spec
import proofs.«137735_j51797305589975_2_alg».proof.Proof.LibColumnLayout
import proofs.«137735_j51797305589975_2_alg».proof.Proof.LibLaneSum
import proofs.«137735_j51797305589975_2_alg».proof.Proof.LibMatmul2D
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.KValue

open Idealize.ShloMosaic Idealize.ShloMosaic.ValueIdx Cert.KernelIdeal Cert.KernelIdeal.Gen Cert.SupCon

/-! ## The two matrix products -/

/-- The similarity at (r, j) is the inner product of query row r and key row j: the product contracts the queries'
    second axis with the transposed keys' first axis, and the transposed keys at (k, j) are the keys at (j, k). -/
theorem simRow_at (v0 : Vec Ideal S256x128 .bf16) (v2 : Vec Ideal S8192x128 .bf16) (r : Fin 256) (j : Fin 8192) :
    Gen.k1_pay6 (F := Ideal) v0 v2 (ix2 r j) = dot (fun d => v0 (ix2 r d)) (fun d => v2 (ix2 j d)) := by
  unfold Gen.k1_pay6 Gen.k1_pay5 dot
  dsimp only
  refine (Cert.LibMatmul2D.rows_cols dot_S256x128_S128x8192_S256x8192_1_0_0_1_n_n_wf none _ _ r j).trans ?_
  refine Finset.sum_congr rfl fun k _ => ?_
  refine congrArg₂ (· * ·) (congrFun (shapeCast_self v0 _) (ix2 r k)) ?_
  refine (transpose_ix2_apply _ transposes_S8192x128_p1_0_S128x8192 k j).trans ?_
  exact congrFun (shapeCast_self v2 _) (ix2 j k)

/-- The product against the diagonal rows at (r, c) is the inner product of query row r and diagonal row c. -/
theorem simDiag_at (v0 : Vec Ideal S256x128 .bf16) (v31 : Vec Ideal S256x128 .bf16) (r c : Fin 256) :
    Gen.k1_pay13 (F := Ideal) v0 v31 (ix2 r c) = dot (fun d => v0 (ix2 r d)) (fun d => v31 (ix2 c d)) := by
  unfold Gen.k1_pay13 Gen.k1_pay5 dot
  dsimp only
  refine (Cert.LibMatmul2D.rows_cols dot_S256x128_S128x256_S256x256_1_0_0_1_n_n_wf none _ _ r c).trans ?_
  refine Finset.sum_congr rfl fun k _ => ?_
  refine congrArg₂ (· * ·) (congrFun (shapeCast_self v0 _) (ix2 r k)) ?_
  refine (transpose_ix2_apply _ transposes_S256x128_p1_0_S128x256 k c).trans ?_
  exact congrFun (shapeCast_self v31 _) (ix2 c k)

/-! ## The label mask -/

/-- The label mask at (r, j) compares query r's label, repeated along the row, with key j's label, repeated down the
    column. -/
theorem labelBit_at (v6 : Vec Ideal S256x1 .i32) (v8 : Vec Ideal S1x8192 .i32) (r : Fin 256) (j : Fin 8192) :
    Gen.k1_pay7 (F := Ideal) v6 v8 (ix2 r j) = IntOp.cmpi .eq (v6 (ix2 r 0)) (v8 (ix2 0 j)) := by
  unfold Gen.k1_pay7
  refine congrArg₂ (IntOp.cmpi CmpIPredicate.eq) ?_ ?_
  · refine (Cert.Lib.ColumnLayout.broadcastTo_a1_ab_apply _ broadcasts_S256x1_S256x8192 r j 0).trans ?_
    exact congrFun (shapeCast_self v6 _) (ix2 r 0)
  · refine (broadcastTo_1b_ab_apply _ broadcasts_S1x8192_S256x8192 r j).trans ?_
    exact congrFun (shapeCast_self v8 _) (ix2 0 j)

/-- Choosing by the bit of "x equals y" is the `if` on the equality of the two words. -/
theorem select_cmpi_eq {α : Type} (x y : BitVec 32) (a b : α) :
    Scalar.select (IntOp.cmpi .eq x y) a b = if x = y then a else b := by
  have hc : IntOp.cmpi .eq x y = BitVec.ofBool (x == y) := rfl
  rw [hc]
  unfold Scalar.select
  by_cases h : x = y
  · subst h; rw [if_pos rfl, beq_self_eq_true]; rfl
  · rw [if_neg h, beq_eq_false_iff_ne.mpr h]; rfl

/-! ## The diagonal -/

/-- Two coordinates below 256 are equal exactly when their 32-bit words are: 256 is far below 2^32. -/
theorem ofNat32_inj (r c : Fin 256) : BitVec.ofNat 32 r.val = BitVec.ofNat 32 c.val ↔ r = c := by
  constructor
  · intro h
    have h2 := congrArg BitVec.toNat h
    simp only [BitVec.toNat_ofNat] at h2
    have hr := r.isLt
    have hc := c.isLt
    apply Fin.ext
    omega
  · rintro rfl; rfl

/-- The diagonal mask at (r, c) compares the row coordinate and the column coordinate as 32-bit words. -/
theorem diagBit_at (r c : Fin 256) :
    Gen.k1_pay14 (ix2 r c) = IntOp.cmpi .eq (BitVec.ofNat 32 r.val) (BitVec.ofNat 32 c.val) := by
  unfold Gen.k1_pay14
  exact congrArg₂ (IntOp.cmpi .eq) (iota_single_apply .tc S256x256 32 0 iota_S256x256_d0_w32 (ix2 r c))
    (iota_single_apply .tc S256x256 32 1 iota_S256x256_d1_w32 (ix2 r c))

/-- The diagonal term of row r: the masked product summed along the row keeps only the term at c = r, the inner
    product of query row r with diagonal row r. -/
theorem diag_at (v0 v31 : Vec Ideal S256x128 .bf16) (r : Fin 256) :
    Gen.k1_pay1 (F := Ideal) (Gen.k1_pay13 v0 v31) Gen.k1_pay14 Gen.k1_pay15 (ix2 r 0)
      = dot (fun d => v0 (ix2 r d)) (fun d => v31 (ix2 r d)) := by
  unfold Gen.k1_pay1
  dsimp only
  refine (Cert.Lib.ColumnLayout.shapeCast_a_a1_apply _ shapeCasts_S256_S256x1 r 0).trans ?_
  refine (Cert.Lib.LaneSum.laneSum_apply _ _ _ _ _ r).trans ?_
  have hterm : ∀ c : Fin 256, select Gen.k1_pay14 (Gen.k1_pay13 (F := Ideal) v0 v31) Gen.k1_pay15 (ix2 r c)
      = if r = c then Gen.k1_pay13 (F := Ideal) v0 v31 (ix2 r c) else 0 := by
    intro c
    refine (select_apply _ _ _ _).trans ?_
    rw [diagBit_at r c, select_cmpi_eq]
    have hz : Gen.k1_pay15 (F := Ideal) (ix2 r c) = 0 := Ideal.ofBits_zero_f32
    rw [hz]
    by_cases h : r = c
    · rw [if_pos h, if_pos ((ofNat32_inj r c).mpr h)]
    · rw [if_neg h, if_neg (fun h' => h ((ofNat32_inj r c).mp h'))]
  refine (Finset.sum_congr rfl fun c _ => hterm c).trans ?_
  rw [Finset.sum_ite_eq, if_pos (Finset.mem_univ r)]
  exact simDiag_at v0 v31 r r

/-! ## The weight -/

/-- The weight at (r, j) is the exponential of the similarity times two. -/
theorem weight_at (v0 : Vec Ideal S256x128 .bf16) (v2 : Vec Ideal S8192x128 .bf16) (r : Fin 256) (j : Fin 8192) :
    Gen.k1_pay8 (F := Ideal) v0 v2 (ix2 r j) = wK (fun d => v0 (ix2 r d)) (fun j d => v2 (ix2 j d)) j := by
  unfold Gen.k1_pay8 wK
  dsimp only
  exact congrArg Ideal.exp (congrArg₂ (· * ·) (simRow_at v0 v2 r j) rfl)

end Cert.KernelIdeal.KValue

end
-- ==== Proof.KernelValue2.lean ====
/-
  The similarity kernel's three stored columns, entry by entry.

  For each of its 256 query rows the body forms four sums over the 8192 keys: the sum of all weights, the sum of the
  weights of the keys that carry the query's label, the sum of all similarities and the sum of the same-label
  similarities.  Each is a sum along a row of a 256 × 8192 array kept as a 256 × 1 column, the same-label ones after
  the other entries have been replaced by zero.  From these and the row's diagonal term it stores three columns:
      loss = 0 − log ((same-label weights − diagonal weight + eps8) / ((all − same-label weights) + (same-label weights − diagonal weight))),
      pos  = same-label similarities − diagonal similarity,
      neg  = all similarities − same-label similarities.
  Entry r of each column is the specification's `rowLoss`, `rowPos`, `rowNeg` of query row r, all the key rows, the
  query's label, the keys' labels and the diagonal row r.  No algebraic law is used: both sides are the same
  arrangement of the same sums.
-/
import proofs.«137735_j51797305589975_2_alg».proof.Proof.Gen.KernelIdeal.Skeleton
import proofs.«137735_j51797305589975_2_alg».proof.Proof.Spec
import proofs.«137735_j51797305589975_2_alg».proof.Proof.LibColumnLayout
import proofs.«137735_j51797305589975_2_alg».proof.Proof.LibLaneSum
import proofs.«137735_j51797305589975_2_alg».proof.Proof.KernelValue1
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.KValue

open Idealize.ShloMosaic Idealize.ShloMosaic.ValueIdx Cert.KernelIdeal Cert.KernelIdeal.Gen Cert.SupCon

/-! ## A row sum kept as a column, and the same under the label mask -/

/-- The sum along each row of a 256 × 8192 array, kept as a column: at (r, 0) it is the sum of row r. -/
theorem rowSum_at (X : FVec Ideal S256x8192 .f32) (hφ : FKind.Formats .f32)
    (hacc : (0x00000000#32 : BitVec 32) = FKind.add.neutral .f32 hφ) (r : Fin 256) :
    shapeCast S256x1 (multiReduction .add [1] S256 X 0x00000000#32 reduces_S256x8192_S256 hφ hacc) shapeCasts_S256_S256x1
        (ix2 r 0) = ∑ j : Fin 8192, X (ix2 r j) := by
  refine (Cert.Lib.ColumnLayout.shapeCast_a_a1_apply _ shapeCasts_S256_S256x1 r 0).trans ?_
  exact Cert.Lib.LaneSum.laneSum_apply X _ _ _ _ r

/-- The same sum after the entries whose key label differs from the query's have been replaced by the entries of an
    all-zero array: at (r, 0) it is the sum, over the keys j with the query's label, of the array at (r, j). -/
theorem maskedRowSum_at (v6 : Vec Ideal S256x1 .i32) (v8 : Vec Ideal S1x8192 .i32) (X Z : FVec Ideal S256x8192 .f32)
    (hZ : ∀ i, Z i = 0) (hφ : FKind.Formats .f32)
    (hacc : (0x00000000#32 : BitVec 32) = FKind.add.neutral .f32 hφ) (r : Fin 256) :
    shapeCast S256x1 (multiReduction .add [1] S256 (select (Gen.k1_pay7 (F := Ideal) v6 v8) X Z) 0x00000000#32
        reduces_S256x8192_S256 hφ hacc) shapeCasts_S256_S256x1 (ix2 r 0)
      = ∑ j : Fin 8192, if v6 (ix2 r 0) = v8 (ix2 0 j) then X (ix2 r j) else 0 := by
  refine (rowSum_at _ hφ hacc r).trans ?_
  refine Finset.sum_congr rfl fun j _ => ?_
  refine (select_apply _ _ _ _).trans ?_
  rw [labelBit_at v6 v8 r j, select_cmpi_eq, hZ]

/-! ## The four row sums -/

/-- The sum of row r of the similarities is the specification's sum over all keys. -/
theorem allS_at (v0 : Vec Ideal S256x128 .bf16) (v2 : Vec Ideal S8192x128 .bf16) (r : Fin 256) :
    Gen.k1_pay11 (F := Ideal) v0 v2 (ix2 r 0) = sumAllS (fun d => v0 (ix2 r d)) (fun j d => v2 (ix2 j d)) := by
  unfold Gen.k1_pay11 sumAllS
  dsimp only
  refine (rowSum_at _ _ _ r).trans ?_
  exact Finset.sum_congr rfl fun j _ => simRow_at v0 v2 r j

/-- The sum of row r of the weights is the specification's sum of all weights. -/
theorem allW_at (v0 : Vec Ideal S256x128 .bf16) (v2 : Vec Ideal S8192x128 .bf16) (r : Fin 256) :
    Gen.k1_pay9 (F := Ideal) v0 v2 (ix2 r 0) = sumAllW (fun d => v0 (ix2 r d)) (fun j d => v2 (ix2 j d)) := by
  unfold Gen.k1_pay9 sumAllW
  dsimp only
  refine (rowSum_at _ _ _ r).trans ?_
  exact Finset.sum_congr rfl fun j _ => weight_at v0 v2 r j

/-- The masked sum of row r of the similarities is the specification's sum over the keys with the query's label. -/
theorem eqS_at (v0 : Vec Ideal S256x128 .bf16) (v2 : Vec Ideal S8192x128 .bf16) (v6 : Vec Ideal S256x1 .i32)
    (v8 : Vec Ideal S1x8192 .i32) (r : Fin 256) :
    Gen.k1_pay12 (F := Ideal) v0 v2 v6 v8 (ix2 r 0)
      = sumEqS (fun d => v0 (ix2 r d)) (fun j d => v2 (ix2 j d)) (v6 (ix2 r 0)) (fun j => v8 (ix2 0 j)) := by
  unfold Gen.k1_pay12 sumEqS
  dsimp only
  refine (maskedRowSum_at v6 v8 _ _ (fun _ => Ideal.ofBits_zero_f32) _ _ r).trans ?_
  exact Finset.sum_congr rfl fun j _ => by rw [simRow_at v0 v2 r j]

/-- The masked sum of row r of the weights is the specification's sum of the same-label weights. -/
theorem eqW_at (v0 : Vec Ideal S256x128 .bf16) (v2 : Vec Ideal S8192x128 .bf16) (v6 : Vec Ideal S256x1 .i32)
    (v8 : Vec Ideal S1x8192 .i32) (r : Fin 256) :
    Gen.k1_pay10 (F := Ideal) v0 v2 v6 v8 (ix2 r 0)
      = sumEqW (fun d => v0 (ix2 r d)) (fun j d => v2 (ix2 j d)) (v6 (ix2 r 0)) (fun j => v8 (ix2 0 j)) := by
  unfold Gen.k1_pay10 sumEqW
  dsimp only
  refine (maskedRowSum_at v6 v8 _ _ (fun _ => Ideal.ofBits_zero_f32) _ _ r).trans ?_
  exact Finset.sum_congr rfl fun j _ => by rw [weight_at v0 v2 r j]

/-! ## The three stored blocks -/

/-- The loss column the body stores. -/
def lossBlk (v0 : Vec Ideal S256x128 .bf16) (v2 : Vec Ideal S8192x128 .bf16) (v6 : Vec Ideal S256x1 .i32)
    (v8 : Vec Ideal S1x8192 .i32) (v31 : Vec Ideal S256x128 .bf16) : FVec Ideal S256x1 .f32 :=
  Gen.k1_pay4 (Gen.k1_pay9 v0 v2) (Gen.k1_pay10 v0 v2 v6 v8) (Gen.k1_pay13 v0 v31) Gen.k1_pay14 Gen.k1_pay15

/-- The same-label similarity column the body stores. -/
def posBlk (v0 : Vec Ideal S256x128 .bf16) (v2 : Vec Ideal S8192x128 .bf16) (v6 : Vec Ideal S256x1 .i32)
    (v8 : Vec Ideal S1x8192 .i32) (v31 : Vec Ideal S256x128 .bf16) : FVec Ideal S256x1 .f32 :=
  Gen.k1_pay2 (Gen.k1_pay12 v0 v2 v6 v8) (Gen.k1_pay13 v0 v31) Gen.k1_pay14 Gen.k1_pay15

/-- The other-label similarity column the body stores. -/
def negBlk (v0 : Vec Ideal S256x128 .bf16) (v2 : Vec Ideal S8192x128 .bf16) (v6 : Vec Ideal S256x1 .i32)
    (v8 : Vec Ideal S1x8192 .i32) : FVec Ideal S256x1 .f32 :=
  Gen.k1_pay3 (Gen.k1_pay11 v0 v2) (Gen.k1_pay12 v0 v2 v6 v8)

/-- Entry r of the other-label column: all similarities of the row less the same-label ones. -/
theorem negBlk_at (v0 : Vec Ideal S256x128 .bf16) (v2 : Vec Ideal S8192x128 .bf16) (v6 : Vec Ideal S256x1 .i32)
    (v8 : Vec Ideal S1x8192 .i32) (r : Fin 256) :
    negBlk v0 v2 v6 v8 (ix2 r 0)
      = rowNeg (fun d => v0 (ix2 r d)) (fun j d => v2 (ix2 j d)) (v6 (ix2 r 0)) (fun j => v8 (ix2 0 j)) := by
  unfold negBlk rowNeg Gen.k1_pay3
  exact congrArg₂ (· - ·) (allS_at v0 v2 r) (eqS_at v0 v2 v6 v8 r)

/-- Entry r of the same-label column: the same-label similarities of the row less the diagonal one. -/
theorem posBlk_at (v0 : Vec Ideal S256x128 .bf16) (v2 : Vec Ideal S8192x128 .bf16) (v6 : Vec Ideal S256x1 .i32)
    (v8 : Vec Ideal S1x8192 .i32) (v31 : Vec Ideal S256x128 .bf16) (r : Fin 256) :
    posBlk v0 v2 v6 v8 v31 (ix2 r 0)
      = rowPos (fun d => v0 (ix2 r d)) (fun j d => v2 (ix2 j d)) (v6 (ix2 r 0)) (fun j => v8 (ix2 0 j))
          (fun d => v31 (ix2 r d)) := by
  unfold posBlk rowPos Gen.k1_pay2
  exact congrArg₂ (· - ·) (eqS_at v0 v2 v6 v8 r) (diag_at v0 v31 r)

/-- The loss entry as a formula of the two weight sums and the diagonal term, whatever they are. -/
theorem pay4_at (v17 v21 : FVec Ideal S256x1 .f32) (v34 : FVec Ideal S256x256 .f32) (v37 : IVec S256x256 1)
    (v38 : FVec Ideal S256x256 .f32) (i : S256x1.Idx) :
    Gen.k1_pay4 (F := Ideal) v17 v21 v34 v37 v38 i
      = 0 - Ideal.log (Ideal.div ((v21 i - Ideal.exp (Gen.k1_pay1 v34 v37 v38 i * two)) + eps8)
          ((v17 i - v21 i) + (v21 i - Ideal.exp (Gen.k1_pay1 v34 v37 v38 i * two)))) := by
  unfold Gen.k1_pay4
  show Ideal.ofBits .f32 0x00000000#32 - _ = _
  rw [Ideal.ofBits_zero_f32]
  rfl

/-- Entry r of the loss column: minus the logarithm of (same-label weights without the diagonal, plus eps8) over
    (other-label weights plus same-label weights without the diagonal). -/
theorem lossBlk_at (v0 : Vec Ideal S256x128 .bf16) (v2 : Vec Ideal S8192x128 .bf16) (v6 : Vec Ideal S256x1 .i32)
    (v8 : Vec Ideal S1x8192 .i32) (v31 : Vec Ideal S256x128 .bf16) (r : Fin 256) :
    lossBlk v0 v2 v6 v8 v31 (ix2 r 0)
      = rowLoss (fun d => v0 (ix2 r d)) (fun j d => v2 (ix2 j d)) (v6 (ix2 r 0)) (fun j => v8 (ix2 0 j))
          (fun d => v31 (ix2 r d)) := by
  unfold lossBlk rowLoss numRow denRow
  refine (pay4_at _ _ _ _ _ _).trans ?_
  rw [allW_at v0 v2 r, eqW_at v0 v2 v6 v8 r, diag_at v0 v31 r]

end Cert.KernelIdeal.KValue

end
-- ==== Proof.SimsValue.lean ====
/-
  The three result columns of the similarity region, row by row, as functions of the arrays the region is entered with.

  The region's grid has 32 points.  Point t takes rows 256·t … 256·t + 255 of the normalized array as its queries
  and their labels as a column, reads the whole normalized array as its keys and all labels as a row, loads once
  more the 256 key rows starting at row 256·t (the keys on the diagonal of this block of queries), and writes rows
  256·t … 256·t + 255 of three one-column results.  Entry r of each stored block depends on query row r of the
  block only, so row i = 256·t + r of a result column is a function of row i of the normalized array taken as the
  query, of the whole array taken as the keys, of label i, of all labels, and of row i again taken as the diagonal
  key: the specification's rowLoss, rowPos and rowNeg.  Every row lies in the block of exactly the point i / 256, so
  after the last point each column holds that function at every row.
-/
import proofs.«137735_j51797305589975_2_alg».proof.Proof.SimsRegionIdeal
import proofs.«137735_j51797305589975_2_alg».proof.Proof.Spec
import proofs.«137735_j51797305589975_2_alg».proof.Proof.KernelValue2
import Idealize.ShloMosaic.Lib.Pipeline.Value
import Idealize.ShloMosaic.Lib.ValueIdx

noncomputable section

namespace Cert.KernelIdeal.SimsValue

open Cert.KernelIdeal Cert.KernelIdeal.Gen
open Idealize.ShloMosaic Idealize.ShloMosaic.TcCoe Idealize.ShloMosaic.ValueIdx Idealize.SL.Sem
open Idealize.ShloMosaic.Pipeline (Dat)
open Cert.SupCon

-- the contents of the core's buffers when the region is entered
variable (V : (c : Dev nD) → (b : Ref sig .tc) → Buf (Elt Ideal) ((c : Thread nD τ).loc b))

/-! ## The index maps -/

/-- The printed index maps over the 32 grid points: the query block, its labels and the three result columns are at
    block row `t`; the key array and the label row are read whole, at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ## The four input blocks and the diagonal keys, read off the arrays

A block's coordinate in its array is the block index times the block size plus the coordinate inside the block. -/

/-- Row `r` of the query block at point `t` is row `256·t + r` of the normalized array. -/
theorem blk_q (c : Dev nD) (t : Fin cfg1.N) (r : Fin 256) (d : Fin 128) (k : Fin 8192) (hk : k.val = 256 * t.val + r.val) :
    Sims.blk V c 0 t (ix2 r d) = V c main_v0 (ix2 k d) := by
  obtain ⟨e0, e1, -⟩ := idx_facts t
  show V c main_v0 (((cfg1.win 0).blk t).view.emb (ix2 r d)) = V c main_v0 (ix2 k d)
  refine congrArg (V c main_v0) ?_
  funext a; apply Fin.ext
  match a with
  | ⟨0, _⟩ => show win1_0.index t (0 : Fin 2) * 256 + 1 * r.val = k.val; omega
  | ⟨1, _⟩ => show win1_0.index t (1 : Fin 2) * 128 + 1 * d.val = d.val; omega

/-- The key block is the whole normalized array at every point. -/
theorem blk_k (c : Dev nD) (t : Fin cfg1.N) (j : Fin 8192) (d : Fin 128) :
    Sims.blk V c 1 t (ix2 j d) = V c main_v0 (ix2 j d) := by
  obtain ⟨-, -, e0, e1, -⟩ := idx_facts t
  show V c main_v0 (((cfg1.win 1).blk t).view.emb (ix2 j d)) = V c main_v0 (ix2 j d)
  refine congrArg (V c main_v0) ?_
  funext a; apply Fin.ext
  match a with
  | ⟨0, _⟩ => show win1_1.index t (0 : Fin 2) * 8192 + 1 * j.val = j.val; omega
  | ⟨1, _⟩ => show win1_1.index t (1 : Fin 2) * 128 + 1 * d.val = d.val; omega

/-- Entry `r` of the query labels' block at point `t` is the label of row `256·t + r`. -/
theorem blk_ql (c : Dev nD) (t : Fin cfg1.N) (r : Fin 256) (k : Fin 8192) (hk : k.val = 256 * t.val + r.val) :
    Sims.blk V c 2 t (ix2 r 0) = V c main_v1 (ix2 k 0) := by
  obtain ⟨-, -, -, -, e0, e1, -⟩ := idx_facts t
  show V c main_v1 (((cfg1.win 2).blk t).view.emb (ix2 r 0)) = V c main_v1 (ix2 k 0)
  refine congrArg (V c main_v1) ?_
  funext a; apply Fin.ext
  match a with
  | ⟨0, _⟩ => show win1_2.index t (0 : Fin 2) * 256 + 1 * r.val = k.val; omega
  | ⟨1, _⟩ => show win1_2.index t (1 : Fin 2) * 1 + 1 * 0 = 0; omega

/-- The key labels' block is the whole label row at every point. -/
theorem blk_kl (c : Dev nD) (t : Fin cfg1.N) (j : Fin 8192) :
    Sims.blk V c 3 t (ix2 0 j) = V c main_v2 (ix2 0 j) := by
  obtain ⟨-, -, -, -, -, -, e0, e1, -⟩ := idx_facts t
  show V c main_v2 (((cfg1.win 3).blk t).view.emb (ix2 0 j)) = V c main_v2 (ix2 0 j)
  refine congrArg (V c main_v2) ?_
  funext a; apply Fin.ext
  match a with
  | ⟨0, _⟩ => show win1_3.index t (0 : Fin 2) * 1 + 1 * 0 = 0; omega
  | ⟨1, _⟩ => show win1_3.index t (1 : Fin 2) * 8192 + 1 * j.val = j.val; omega

/-- The diagonal load starts at key row `256·t`, column 0. -/
theorem off_diag : ∀ t : Fin cfg1.N,
    k1_off1 (grid1.coords t) (0 : Fin 2) = 256 * t.val ∧ k1_off1 (grid1.coords t) (1 : Fin 2) = 0 :=
  (by decide +kernel : ∀ t : Fin grid1.N, _)

/-- So row `r` of what it loads from a key buffer is the buffer's row `256·t + r`. -/
theorem diag_ld (xk : Vec Ideal S8192x128 .bf16) (t : Fin cfg1.N) (r : Fin 256) (d : Fin 128) (k : Fin 8192)
    (hk : k.val = 256 * t.val + r.val) :
    View.ld xk (Sims.rDiag (grid1.coords t)) (ix2 r d) = xk (ix2 k d) := by
  obtain ⟨e0, e1⟩ := off_diag t
  show xk ((Sims.rDiag (grid1.coords t)).idx (ix2 r d)) = xk (ix2 k d)
  refine congrArg xk ?_
  funext a; apply Fin.ext
  match a with
  | ⟨0, _⟩ => show k1_off1 (grid1.coords t) (0 : Fin 2) + 1 * r.val = k.val; omega
  | ⟨1, _⟩ => show k1_off1 (grid1.coords t) (1 : Fin 2) + 1 * d.val = d.val; omega

/-! ## One entry of each stored block, over any contents of the four staging buffers -/

theorem hz : (![0, 0] : Fin 2 → Nat) = fun _ => 0 := funext fun a => by fin_cases a <;> rfl

/-- An index of a one-column block is its row and column 0. -/
theorem eq_col (y : S256x1.Idx) : y = ix2 (n0 := 256) (n1 := 1) (y 0) 0 := by
  funext a
  match a with
  | ⟨0, _⟩ => rfl
  | ⟨1, _⟩ => exact Fin.ext (by have h : (y 1).val < 1 := (y 1).isLt; show (y 1).val = 0; omega)

/-- Entry `r` of the other-label column: the four whole loads read the buffers' contents. -/
theorem neg_point (xq : Vec Ideal S256x128 .bf16) (xk : Vec Ideal S8192x128 .bf16) (xql : Vec Ideal S256x1 .i32)
    (xkl : Vec Ideal S1x8192 .i32) (r : Fin 256) :
    Sims.negVal xq xk xql xkl (ix2 r 0)
      = rowNeg (fun d => xq (ix2 r d)) (fun j d => xk (ix2 j d)) (xql (ix2 r 0)) (fun j => xkl (ix2 0 j)) := by
  unfold Sims.negVal
  simp only [View.ld_unit_zero (S := S256x128) hz, View.ld_unit_zero (S := S8192x128) hz,
    View.ld_unit_zero (S := S256x1) hz, View.ld_unit_zero (S := S1x8192) hz]
  exact KValue.negBlk_at xq xk xql xkl r

/-- Entry `r` of the same-label column; the diagonal key is row `r` of the fifth load. -/
theorem pos_point (i : grid1.Coords) (xq : Vec Ideal S256x128 .bf16) (xk : Vec Ideal S8192x128 .bf16)
    (xql : Vec Ideal S256x1 .i32) (xkl : Vec Ideal S1x8192 .i32) (r : Fin 256) :
    Sims.posVal i xq xk xql xkl (ix2 r 0)
      = rowPos (fun d => xq (ix2 r d)) (fun j d => xk (ix2 j d)) (xql (ix2 r 0)) (fun j => xkl (ix2 0 j))
          (fun d => View.ld xk (Sims.rDiag i) (ix2 r d)) := by
  unfold Sims.posVal
  simp only [View.ld_unit_zero (S := S256x128) hz, View.ld_unit_zero (S := S8192x128) hz,
    View.ld_unit_zero (S := S256x1) hz, View.ld_unit_zero (S := S1x8192) hz]
  exact KValue.posBlk_at xq xk xql xkl (View.ld xk (Sims.rDiag i)) r

/-- Entry `r` of the loss column. -/
theorem loss_point (i : grid1.Coords) (xq : Vec Ideal S256x128 .bf16) (xk : Vec Ideal S8192x128 .bf16)
    (xql : Vec Ideal S256x1 .i32) (xkl : Vec Ideal S1x8192 .i32) (r : Fin 256) :
    Sims.lossVal i xq xk xql xkl (ix2 r 0)
      = rowLoss (fun d => xq (ix2 r d)) (fun j d => xk (ix2 j d)) (xql (ix2 r 0)) (fun j => xkl (ix2 0 j))
          (fun d => View.ld xk (Sims.rDiag i) (ix2 r d)) := by
  unfold Sims.lossVal
  simp only [View.ld_unit_zero (S := S256x128) hz, View.ld_unit_zero (S := S8192x128) hz,
    View.ld_unit_zero (S := S256x1) hz, View.ld_unit_zero (S := S1x8192) hz]
  exact KValue.lossBlk_at xq xk xql xkl (View.ld xk (Sims.rDiag i)) r

/-! ## The three columns as functions of the arrays -/

/-- Row `k` of the other-label column: row `k` is the query, every row a key. -/
def negRow (c : Dev nD) (k : Fin 8192) : EReal :=
  rowNeg (fun d => V c main_v0 (ix2 k d)) (fun j d => V c main_v0 (ix2 j d)) (V c main_v1 (ix2 k 0))
    (fun j => V c main_v2 (ix2 0 j))
/-- Row `k` of the same-label column: the diagonal key is row `k` itself. -/
def posRow (c : Dev nD) (k : Fin 8192) : EReal :=
  rowPos (fun d => V c main_v0 (ix2 k d)) (fun j d => V c main_v0 (ix2 j d)) (V c main_v1 (ix2 k 0))
    (fun j => V c main_v2 (ix2 0 j)) (fun d => V c main_v0 (ix2 k d))
/-- Row `k` of the loss column. -/
def lossRow (c : Dev nD) (k : Fin 8192) : EReal :=
  rowLoss (fun d => V c main_v0 (ix2 k d)) (fun j d => V c main_v0 (ix2 j d)) (V c main_v1 (ix2 k 0))
    (fun j => V c main_v2 (ix2 0 j)) (fun d => V c main_v0 (ix2 k d))

def negArr (c : Dev nD) : S8192x1.Idx → EReal := fun i => negRow V c (i 0)
def posArr (c : Dev nD) : S8192x1.Idx → EReal := fun i => posRow V c (i 0)
def lossArr (c : Dev nD) : S8192x1.Idx → EReal := fun i => lossRow V c (i 0)

/-! ## Entry `r` of what point `t` stores is row `256·t + r` of the column -/

theorem neg_block (c : Dev nD) (t : Fin cfg1.N) (r : Fin 256) (k : Fin 8192) (hk : k.val = 256 * t.val + r.val) :
    Sims.negVal (Sims.blk V c 0 t) (Sims.blk V c 1 t) (Sims.blk V c 2 t) (Sims.blk V c 3 t) (ix2 r 0) = negRow V c k := by
  refine (neg_point _ _ _ _ r).trans ?_
  unfold negRow
  simp only [blk_q V c t r _ k hk, blk_k V c t, blk_ql V c t r k hk, blk_kl V c t]

theorem pos_block (c : Dev nD) (t : Fin cfg1.N) (r : Fin 256) (k : Fin 8192) (hk : k.val = 256 * t.val + r.val) :
    Sims.posVal (grid1.coords t) (Sims.blk V c 0 t) (Sims.blk V c 1 t) (Sims.blk V c 2 t) (Sims.blk V c 3 t) (ix2 r 0)
      = posRow V c k := by
  refine (pos_point _ _ _ _ _ r).trans ?_
  unfold posRow
  have hd : (fun d => View.ld (Sims.blk V c 1 t) (Sims.rDiag (grid1.coords t)) (ix2 r d)) = fun d => V c main_v0 (ix2 k d) :=
    funext fun d => (diag_ld (Sims.blk V c 1 t) t r d k hk).trans (blk_k V c t k d)
  simp only [blk_q V c t r _ k hk, blk_k V c t, blk_ql V c t r k hk, blk_kl V c t]
  exact congrArg (rowPos _ _ _ _) hd

theorem loss_block (c : Dev nD) (t : Fin cfg1.N) (r : Fin 256) (k : Fin 8192) (hk : k.val = 256 * t.val + r.val) :
    Sims.lossVal (grid1.coords t) (Sims.blk V c 0 t) (Sims.blk V c 1 t) (Sims.blk V c 2 t) (Sims.blk V c 3 t) (ix2 r 0)
      = lossRow V c k := by
  refine (loss_point _ _ _ _ _ r).trans ?_
  unfold lossRow
  have hd : (fun d => View.ld (Sims.blk V c 1 t) (Sims.rDiag (grid1.coords t)) (ix2 r d)) = fun d => V c main_v0 (ix2 k d) :=
    funext fun d => (diag_ld (Sims.blk V c 1 t) t r d k hk).trans (blk_k V c t k d)
  simp only [blk_q V c t r _ k hk, blk_k V c t, blk_ql V c t r k hk, blk_kl V c t]
  exact congrArg (rowLoss _ _ _ _) hd

/-! ## What each point writes back is its block of the column -/

theorem flushed_neg (c : Dev nD) (t : Fin cfg1.N) :
    (Sims.dat (F := Ideal) V c).flushed 6 t = ((cfg1.win 6).blk t).view.read (Elt Ideal) (negArr V c) := by
  show (cfg1.win 6).cut (grid1.coords t) ((Sims.dat (F := Ideal) V c).after 6 t) = _
  rw [Sims.after_neg]
  unfold Sims.outNeg
  rw [View.canon_unit_zero hz]
  funext y
  obtain ⟨r, rfl⟩ : ∃ r : Fin 256, y = ix2 r 0 := ⟨y 0, eq_col y⟩
  obtain ⟨-, -, -, -, -, -, -, -, -, -, -, -, e0, e1⟩ := idx_facts t
  have hN : cfg1.N = 32 := N_1
  have ht : t.val < 32 := hN ▸ t.isLt
  have hr : r.val < 256 := r.isLt
  show Sims.negVal (Sims.blk V c 0 t) (Sims.blk V c 1 t) (Sims.blk V c 2 t) (Sims.blk V c 3 t) (ix2 r 0)
      = negRow V c ((((cfg1.win 6).blk t).view.emb (ix2 r 0)) 0)
  refine (neg_block V c t r ⟨256 * t.val + r.val, by omega⟩ rfl).trans (congrArg (negRow V c) (Fin.ext ?_))
  show 256 * t.val + r.val = win1_6.index t (0 : Fin 2) * 256 + 1 * r.val
  omega

theorem flushed_pos (c : Dev nD) (t : Fin cfg1.N) :
    (Sims.dat (F := Ideal) V c).flushed 5 t = ((cfg1.win 5).blk t).view.read (Elt Ideal) (posArr V c) := by
  show (cfg1.win 5).cut (grid1.coords t) ((Sims.dat (F := Ideal) V c).after 5 t) = _
  rw [Sims.after_pos]
  unfold Sims.outPos
  rw [View.canon_unit_zero hz]
  funext y
  obtain ⟨r, rfl⟩ : ∃ r : Fin 256, y = ix2 r 0 := ⟨y 0, eq_col y⟩
  obtain ⟨-, -, -, -, -, -, -, -, -, -, e0, e1, -⟩ := idx_facts t
  have hN : cfg1.N = 32 := N_1
  have ht : t.val < 32 := hN ▸ t.isLt
  have hr : r.val < 256 := r.isLt
  show Sims.posVal (grid1.coords t) (Sims.blk V c 0 t) (Sims.blk V c 1 t) (Sims.blk V c 2 t) (Sims.blk V c 3 t) (ix2 r 0)
      = posRow V c ((((cfg1.win 5).blk t).view.emb (ix2 r 0)) 0)
  refine (pos_block V c t r ⟨256 * t.val + r.val, by omega⟩ rfl).trans (congrArg (posRow V c) (Fin.ext ?_))
  show 256 * t.val + r.val = win1_5.index t (0 : Fin 2) * 256 + 1 * r.val
  omega

theorem flushed_loss (c : Dev nD) (t : Fin cfg1.N) :
    (Sims.dat (F := Ideal) V c).flushed 4 t = ((cfg1.win 4).blk t).view.read (Elt Ideal) (lossArr V c) := by
  show (cfg1.win 4).cut (grid1.coords t) ((Sims.dat (F := Ideal) V c).after 4 t) = _
  rw [Sims.after_loss]
  unfold Sims.outLoss
  rw [View.canon_unit_zero hz]
  funext y
  obtain ⟨r, rfl⟩ : ∃ r : Fin 256, y = ix2 r 0 := ⟨y 0, eq_col y⟩
  obtain ⟨-, -, -, -, -, -, -, -, e0, e1, -⟩ := idx_facts t
  have hN : cfg1.N = 32 := N_1
  have ht : t.val < 32 := hN ▸ t.isLt
  have hr : r.val < 256 := r.isLt
  show Sims.lossVal (grid1.coords t) (Sims.blk V c 0 t) (Sims.blk V c 1 t) (Sims.blk V c 2 t) (Sims.blk V c 3 t) (ix2 r 0)
      = lossRow V c ((((cfg1.win 4).blk t).view.emb (ix2 r 0)) 0)
  refine (loss_block V c t r ⟨256 * t.val + r.val, by omega⟩ rfl).trans (congrArg (lossRow V c) (Fin.ext ?_))
  show 256 * t.val + r.val = win1_4.index t (0 : Fin 2) * 256 + 1 * r.val
  omega

/-! ## Every row of a result column is written back by some point -/

/-- An index of result column 0 is in point `t`'s block iff each coordinate is in the block's range on its axis. -/
theorem mem_blk4 (t : Fin cfg1.N) (i : S8192x1.Idx) :
    i ∈ ((cfg1.win 4).blk t).view.set ↔ ∀ a : Fin 2, win1_4.index t a * S256x1.size a ≤ (i a).val ∧ (i a).val < win1_4.index t a * S256x1.size a + S256x1.size a := by
  show i ∈ ((View.whole main_v3_0).slice (win1_4.rect t)).set ↔ _
  rw [View.set_slice_whole, Rect.mem_set_unit]
  exact Iff.rfl

/-- Row `i` of the column is written back by point `i / 256`. -/
theorem cover4 (i : S8192x1.Idx) : ∃ t : Fin cfg1.N, (cfg1.win 4).flush t = true ∧ i ∈ ((cfg1.win 4).blk t).view.set := by
  have hi0 : (i 0).val < 8192 := (i 0).isLt
  have hi1 : (i 1).val < 1 := (i 1).isLt
  have hN : cfg1.N = 32 := N_1
  obtain ⟨t, ht⟩ : ∃ t : Fin cfg1.N, t.val = (i 0).val / 256 := ⟨⟨(i 0).val / 256, by rw [hN]; omega⟩, rfl⟩
  refine ⟨t, flush1_4 t, ?_⟩
  rw [mem_blk4]
  obtain ⟨-, -, -, -, -, -, -, -, e40, e41, e50, e51, e60, e61⟩ := idx_facts t
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 1 ≤ (i 1).val ∧ (i 1).val < win1_4.index t (1 : Fin 2) * 1 + 1; omega

/-- An index of result column 1 is in point `t`'s block iff each coordinate is in the block's range on its axis. -/
theorem mem_blk5 (t : Fin cfg1.N) (i : S8192x1.Idx) :
    i ∈ ((cfg1.win 5).blk t).view.set ↔ ∀ a : Fin 2, win1_5.index t a * S256x1.size a ≤ (i a).val ∧ (i a).val < win1_5.index t a * S256x1.size a + S256x1.size a := by
  show i ∈ ((View.whole main_v3_1).slice (win1_5.rect t)).set ↔ _
  rw [View.set_slice_whole, Rect.mem_set_unit]
  exact Iff.rfl

/-- Row `i` of the column is written back by point `i / 256`. -/
theorem cover5 (i : S8192x1.Idx) : ∃ t : Fin cfg1.N, (cfg1.win 5).flush t = true ∧ i ∈ ((cfg1.win 5).blk t).view.set := by
  have hi0 : (i 0).val < 8192 := (i 0).isLt
  have hi1 : (i 1).val < 1 := (i 1).isLt
  have hN : cfg1.N = 32 := N_1
  obtain ⟨t, ht⟩ : ∃ t : Fin cfg1.N, t.val = (i 0).val / 256 := ⟨⟨(i 0).val / 256, by rw [hN]; omega⟩, rfl⟩
  refine ⟨t, flush1_5 t, ?_⟩
  rw [mem_blk5]
  obtain ⟨-, -, -, -, -, -, -, -, e40, e41, e50, e51, e60, e61⟩ := idx_facts t
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 1 ≤ (i 1).val ∧ (i 1).val < win1_5.index t (1 : Fin 2) * 1 + 1; omega

/-- An index of result column 2 is in point `t`'s block iff each coordinate is in the block's range on its axis. -/
theorem mem_blk6 (t : Fin cfg1.N) (i : S8192x1.Idx) :
    i ∈ ((cfg1.win 6).blk t).view.set ↔ ∀ a : Fin 2, win1_6.index t a * S256x1.size a ≤ (i a).val ∧ (i a).val < win1_6.index t a * S256x1.size a + S256x1.size a := by
  show i ∈ ((View.whole main_v3_2).slice (win1_6.rect t)).set ↔ _
  rw [View.set_slice_whole, Rect.mem_set_unit]
  exact Iff.rfl

/-- Row `i` of the column is written back by point `i / 256`. -/
theorem cover6 (i : S8192x1.Idx) : ∃ t : Fin cfg1.N, (cfg1.win 6).flush t = true ∧ i ∈ ((cfg1.win 6).blk t).view.set := by
  have hi0 : (i 0).val < 8192 := (i 0).isLt
  have hi1 : (i 1).val < 1 := (i 1).isLt
  have hN : cfg1.N = 32 := N_1
  obtain ⟨t, ht⟩ : ∃ t : Fin cfg1.N, t.val = (i 0).val / 256 := ⟨⟨(i 0).val / 256, by rw [hN]; omega⟩, rfl⟩
  refine ⟨t, flush1_6 t, ?_⟩
  rw [mem_blk6]
  obtain ⟨-, -, -, -, -, -, -, -, e40, e41, e50, e51, e60, e61⟩ := idx_facts t
  intro a
  match a with
  | ⟨0, _⟩ => show win1_6.index t (0 : Fin 2) * 256 ≤ (i 0).val ∧ (i 0).val < win1_6.index t (0 : Fin 2) * 256 + 256; omega
  | ⟨1, _⟩ => show win1_6.index t (1 : Fin 2) * 1 ≤ (i 1).val ∧ (i 1).val < win1_6.index t (1 : Fin 2) * 1 + 1; omega

/-! ## The columns after the last point -/

theorem neg_arr (c : Dev nD) : (Sims.dat (F := Ideal) V c).arrAt 6 cfg1.N = negArr V c :=
  (Sims.dat (F := Ideal) V c).arrAt_eq_of_cover 6 (negArr V c) (fun t _ => flushed_neg V c t) cover6
theorem pos_arr (c : Dev nD) : (Sims.dat (F := Ideal) V c).arrAt 5 cfg1.N = posArr V c :=
  (Sims.dat (F := Ideal) V c).arrAt_eq_of_cover 5 (posArr V c) (fun t _ => flushed_pos V c t) cover5
theorem loss_arr (c : Dev nD) : (Sims.dat (F := Ideal) V c).arrAt 4 cfg1.N = lossArr V c :=
  (Sims.dat (F := Ideal) V c).arrAt_eq_of_cover 4 (lossArr V c) (fun t _ => flushed_loss V c t) cover4

/-- Row `i` of the loss column after the region. -/
theorem loss_final (c : Dev nD) (i : Fin 8192) : (Sims.dat (F := Ideal) V c).arrAt 4 cfg1.N (ix2 i 0)
    = rowLoss (fun d => V c main_v0 (ix2 i d)) (fun j d => V c main_v0 (ix2 j d)) (V c main_v1 (ix2 i 0))
        (fun j => V c main_v2 (ix2 0 j)) (fun d => V c main_v0 (ix2 i d)) :=
  congrFun (loss_arr V c) (ix2 i 0)

/-- Row `i` of the same-label similarity column after the region. -/
theorem pos_final (c : Dev nD) (i : Fin 8192) : (Sims.dat (F := Ideal) V c).arrAt 5 cfg1.N (ix2 i 0)
    = rowPos (fun d => V c main_v0 (ix2 i d)) (fun j d => V c main_v0 (ix2 j d)) (V c main_v1 (ix2 i 0))
        (fun j => V c main_v2 (ix2 0 j)) (fun d => V c main_v0 (ix2 i d)) :=
  congrFun (pos_arr V c) (ix2 i 0)

/-- Row `i` of the other-label similarity column after the region. -/
theorem neg_final (c : Dev nD) (i : Fin 8192) : (Sims.dat (F := Ideal) V c).arrAt 6 cfg1.N (ix2 i 0)
    = rowNeg (fun d => V c main_v0 (ix2 i d)) (fun j d => V c main_v0 (ix2 j d)) (V c main_v1 (ix2 i 0))
        (fun j => V c main_v2 (ix2 0 j)) :=
  congrFun (neg_arr V c) (ix2 i 0)

end Cert.KernelIdeal.SimsValue

end
-- ==== Proof.HostPieces.lean ====
/-
  Small readings of host operations of the kernel's program at the ideal instance: the sum of a one-column
  array over both of its axes is the sum of the column (the initial word is zero, the second coordinate has
  one value), and a label vector laid out as a column or as a row reads back the label of that row or column.
-/
import proofs.«137735_j51797305589975_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.HostPieces

open Cert.KernelIdeal Cert.KernelIdeal.Gen Idealize.ShloMosaic Idealize.ShloMosaic.ValueIdx
open scoped BigOperators

/-- The sum of a one-column array over both axes, from a zero initial value, is the sum of its column
    (for any witnesses of the two shape facts). -/
theorem tail_sum_of (a : FVec Ideal S8192x1 .f32) (h : S8192x1.ReducesTo [0, 1] S_) (h0 : 0 < S_.numel) :
    Host.reduceAdd (F := Ideal) a (constant (F := Ideal) S_ .f32 0x00000000#32) h h0
      = fun _ => ∑ i : Fin 8192, a (ix2 i 0) := by
  funext q
  simp only [Host.reduceAdd, Ideal.hostReduceAdd_def]
  refine (Ideal.hostReduceAdd_total h (fun b => b.elim0) a _ q).trans ?_
  rw [constant_apply, Ideal.ofBits_zero_f32, zero_add, sum_idx2]
  exact Finset.sum_congr rfl fun i _ => Fin.sum_univ_one _

/-- The same at the program's own witnesses. -/
theorem tail_sum (a : FVec Ideal S8192x1 .f32) :
    Host.reduceAdd (F := Ideal) a (constant (F := Ideal) S_ .f32 0x00000000#32) reducesTo_S8192x1_S_d0_1 h_S_
      = fun _ => ∑ i : Fin 8192, a (ix2 i 0) :=
  tail_sum_of a _ _

/-- A vector laid out as a column reads back its entry at the row. -/
theorem lab_col_of {α : Type} (L : S8192.Idx → α)
    (h : S8192.BroadcastsInDim S8192x1 (![0] : Fin 1 → Fin S8192x1.rank)) (i : Fin 8192) :
    broadcastInDim S8192x1 ![0] h L (ix2 i 0) = L (ix1 i) :=
  broadcastInDim_apply _ h L (ix2 i 0) (ix1 i) (fun a => match a with
    | ⟨0, _⟩ => by show i.val = if (8192 : Nat) = 1 then 0 else i.val; rw [if_neg (by decide)])
theorem lab_col {α : Type} (L : S8192.Idx → α) (i : Fin 8192) :
    broadcastInDim S8192x1 ![0] bcast_S8192_S8192x1_0 L (ix2 i 0) = L (ix1 i) :=
  lab_col_of L _ i

/-- A vector laid out as a row reads back its entry at the column. -/
theorem lab_row_of {α : Type} (L : S8192.Idx → α)
    (h : S8192.BroadcastsInDim S1x8192 (![1] : Fin 1 → Fin S1x8192.rank)) (j : Fin 8192) :
    broadcastInDim S1x8192 ![1] h L (ix2 0 j) = L (ix1 j) :=
  broadcastInDim_apply _ h L (ix2 0 j) (ix1 j) (fun a => match a with
    | ⟨0, _⟩ => by show j.val = if (8192 : Nat) = 1 then 0 else j.val; rw [if_neg (by decide)])
theorem lab_row {α : Type} (L : S8192.Idx → α) (j : Fin 8192) :
    broadcastInDim S1x8192 ![1] bcast_S8192_S1x8192_1 L (ix2 0 j) = L (ix1 j) :=
  lab_row_of L _ j

end Cert.KernelIdeal.HostPieces

end
-- ==== Proof.EndValue.lean ====
/-
  What the three result scalars hold when the program ends, in the kernel's arrangement of the mathematics.

  Reading back from the end: each result is the sum of one result column divided by a constant; each column entry
  is the row quantity of the specification at the arrays the similarity region was entered with; those arrays are
  the normalized array (every row of the feature array scaled to unit length), the labels laid out as a column,
  and the labels laid out as a row.
-/
import proofs.«137735_j51797305589975_2_alg».proof.Proof.WholeIdeal
import proofs.«137735_j51797305589975_2_alg».proof.Proof.RowsValue
import proofs.«137735_j51797305589975_2_alg».proof.Proof.SimsValue
import proofs.«137735_j51797305589975_2_alg».proof.Proof.HostPieces
import proofs.«137735_j51797305589975_2_alg».proof.Proof.Spec
import Idealize.ShloMosaic.Lib.StableHlo.Run
import Idealize.ShloMosaic.Lib.ValueIdx
import Idealize.ShloMosaic.PureOps.Ideal.Laws

set_option maxRecDepth 16384

noncomputable section

namespace Cert.KernelIdeal.EndValue

open Cert.KernelIdeal Cert.KernelIdeal.Gen Cert.KernelIdeal.Whole Cert.SupCon
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The feature matrix and the labels as plain index functions. -/
abbrev xs (c : Dev nD) : Fin 8192 → Fin 128 → EReal := fun i d => m ((c : Thread nD τ).loc main_arg0) (ix2 i d)
abbrev ls (c : Dev nD) : Fin 8192 → BitVec 32 := fun i => m ((c : Thread nD τ).loc main_arg1) (ix1 i)

/-! ## What the similarity region is entered with -/

/-- The labels as a column: entry `(i, 0)` is label `i`. -/
theorem Wc_col (c : Dev nD) (i : Fin 8192) :
    Wc m ρ c (Proc.devRef .tc main_v1) (ix2 i 0) = ls m c i := by
  have e : Wc m ρ c (Proc.devRef .tc main_v1) = broadcastInDim S8192x1 ![0] bcast_S8192_S8192x1_0 (Wb m ρ c (Proc.devRef .tc main_arg1)) := by
    show StableHlo.after hostOps1 (Wb m ρ c) (Proc.devRef .tc main_v1) = _
    after_results
  refine (congrFun e _).trans ?_
  refine (HostPieces.lab_col_of _ _ i).trans ?_
  exact congrFun (Wb_of_ne m ρ c main_arg1 (by decide)) (ix1 i)

/-- The labels as a row: entry `(0, j)` is label `j`. -/
theorem Wc_row (c : Dev nD) (j : Fin 8192) :
    Wc m ρ c (Proc.devRef .tc main_v2) (ix2 0 j) = ls m c j := by
  have e : Wc m ρ c (Proc.devRef .tc main_v2) = broadcastInDim S1x8192 ![1] bcast_S8192_S1x8192_1 (Wb m ρ c (Proc.devRef .tc main_arg1)) := by
    show StableHlo.after hostOps1 (Wb m ρ c) (Proc.devRef .tc main_v2) = _
    after_results
  refine (congrFun e _).trans ?_
  refine (HostPieces.lab_row_of _ _ j).trans ?_
  exact congrFun (Wb_of_ne m ρ c main_arg1 (by decide)) (ix1 j)

/-- The normalized array: entry `(i, d)` is entry `d` of row `i` of the feature matrix scaled to unit length. The host
    lines between the regions do not write it, and the first region's write-backs leave exactly that. -/
theorem Wc_unit (c : Dev nD) (i : Fin 8192) (d : Fin 128) :
    Wc m ρ c (Proc.devRef .tc main_v0) (ix2 i d) = unit (xs m c) i d := by
  have e : Wc m ρ c (Proc.devRef .tc main_v0) = Wb m ρ c (Proc.devRef .tc main_v0) :=
    StableHlo.after_of_writes_sub hostOps1 _ hostOps1_writes (r := main_v0) (by decide)
  refine (congrFun (e.trans (Wb_arr m ρ c 1)) _).trans ?_
  exact RowsValue.rows_final (Va m ρ) c i d

/-! ## The three result columns -/

theorem hunit (c : Dev nD) : (fun (j : Fin 8192) (d : Fin 128) => Vc m ρ c main_v0 (ix2 j d)) = unit (xs m c) :=
  funext fun j => funext fun d => Wc_unit m ρ c j d
theorem hunit_row (c : Dev nD) (i : Fin 8192) : (fun d : Fin 128 => Vc m ρ c main_v0 (ix2 i d)) = unit (xs m c) i :=
  funext fun d => Wc_unit m ρ c i d
theorem hlabs (c : Dev nD) : (fun j : Fin 8192 => Vc m ρ c main_v2 (ix2 0 j)) = ls m c :=
  funext fun j => Wc_row m ρ c j

theorem Wd_loss (c : Dev nD) (i : Fin 8192) :
    Wd m ρ c (Proc.devRef .tc main_v3_0) (ix2 i 0) = rowLoss (unit (xs m c) i) (unit (xs m c)) (ls m c i) (ls m c) (unit (xs m c) i) := by
  refine (congrFun (Wd_col m ρ c 0) _).trans ?_
  refine (SimsValue.loss_final (Vc m ρ) c i).trans ?_
  rw [hunit m ρ c, hunit_row m ρ c i, hlabs m ρ c]
  exact congrArg (fun l => rowLoss (unit (xs m c) i) (unit (xs m c)) l (ls m c) (unit (xs m c) i)) (Wc_col m ρ c i)

theorem Wd_pos (c : Dev nD) (i : Fin 8192) :
    Wd m ρ c (Proc.devRef .tc main_v3_1) (ix2 i 0) = rowPos (unit (xs m c) i) (unit (xs m c)) (ls m c i) (ls m c) (unit (xs m c) i) := by
  refine (congrFun (Wd_col m ρ c 1) _).trans ?_
  refine (SimsValue.pos_final (Vc m ρ) c i).trans ?_
  rw [hunit m ρ c, hunit_row m ρ c i, hlabs m ρ c]
  exact congrArg (fun l => rowPos (unit (xs m c) i) (unit (xs m c)) l (ls m c) (unit (xs m c) i)) (Wc_col m ρ c i)

theorem Wd_neg (c : Dev nD) (i : Fin 8192) :
    Wd m ρ c (Proc.devRef .tc main_v3_2) (ix2 i 0) = rowNeg (unit (xs m c) i) (unit (xs m c)) (ls m c i) (ls m c) := by
  refine (congrFun (Wd_col m ρ c 2) _).trans ?_
  refine (SimsValue.neg_final (Vc m ρ) c i).trans ?_
  rw [hunit m ρ c, hunit_row m ρ c i, hlabs m ρ c]
  exact congrArg (fun l => rowNeg (unit (xs m c) i) (unit (xs m c)) l (ls m c)) (Wc_col m ρ c i)

/-! ## The three results -/

/-- The loss: the loss column summed and divided by the number of rows. -/
theorem We_loss (c : Dev nD) : We m ρ c (Proc.devRef .tc main_v5) = fun _ => lossK (xs m c) (ls m c) := by
  show StableHlo.after hostOps2 (Wd m ρ c) (Proc.devRef .tc main_v5) = _
  after_results
  refine (congrArg (fun a => Host.divf (F := Ideal) a (constant (F := Ideal) S_ .f32 0x46000000#32)) (HostPieces.tail_sum_of _ _ _)).trans ?_
  funext j
  refine Eq.trans (b := Ideal.div (∑ i : Fin 8192, Wd m ρ c (Proc.devRef .tc main_v3_0) (ix2 i 0)) c8192) rfl ?_
  unfold lossK
  exact congrArg (fun s => Ideal.div s c8192) (Finset.sum_congr rfl fun i _ => Wd_loss m ρ c i)

/-- The mean same-label similarity: its column summed and divided by the square of the number of rows. -/
theorem We_pos (c : Dev nD) : We m ρ c (Proc.devRef .tc main_v7) = fun _ => posK (xs m c) (ls m c) := by
  show StableHlo.after hostOps2 (Wd m ρ c) (Proc.devRef .tc main_v7) = _
  after_results
  refine (congrArg (fun a => Host.divf (F := Ideal) a (constant (F := Ideal) S_ .f32 0x4C800000#32)) (HostPieces.tail_sum_of _ _ _)).trans ?_
  funext j
  refine Eq.trans (b := Ideal.div (∑ i : Fin 8192, Wd m ρ c (Proc.devRef .tc main_v3_1) (ix2 i 0)) c2p26) rfl ?_
  unfold posK
  exact congrArg (fun s => Ideal.div s c2p26) (Finset.sum_congr rfl fun i _ => Wd_pos m ρ c i)

/-- The mean other-label similarity, likewise. -/
theorem We_neg (c : Dev nD) : We m ρ c (Proc.devRef .tc main_v9) = fun _ => negK (xs m c) (ls m c) := by
  show StableHlo.after hostOps2 (Wd m ρ c) (Proc.devRef .tc main_v9) = _
  after_results
  refine (congrArg (fun a => Host.divf (F := Ideal) a (constant (F := Ideal) S_ .f32 0x4C800000#32)) (HostPieces.tail_sum_of _ _ _)).trans ?_
  funext j
  refine Eq.trans (b := Ideal.div (∑ i : Fin 8192, Wd m ρ c (Proc.devRef .tc main_v3_2) (ix2 i 0)) c2p26) rfl ?_
  unfold negK
  exact congrArg (fun s => Ideal.div s c2p26) (Finset.sum_congr rfl fun i _ => Wd_neg m ρ c i)

end Cert.KernelIdeal.EndValue

end
-- ==== Proof.RefValue.lean ====
/-
  The reference's three results, read entry by entry, are the specification's reference form.

  Row `i` of the feature matrix is divided by its length floored at a small constant; the similarity of rows
  `i` and `j` is the inner product of the two scaled rows (the transposed copy on the right of the product reads
  row `j` back); the weight is the exponential of the similarity over one half. The two masks are 0/1 readings
  of comparisons of the labels (label `j` against label `i`, which is symmetric) and of the row number against
  the column number (equal as 32-bit words exactly when equal, both being below 2^32). Every sum starts at the
  zero word, which is 0; the sum over both axes of the square matrix is the double sum over rows and columns.
-/
import proofs.«137735_j51797305589975_2_alg».proof.Proof.Gen.ReferenceIdeal.Read
import proofs.«137735_j51797305589975_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.SupCon
open Idealize.ShloMosaic.TcCoe Idealize.SL.Sem Idealize.ShloMosaic.StableHlo
open scoped BigOperators

variable (X : (⟨S8192x128, .f32⟩ : BufTy).Contents (Elt Ideal)) (L : (⟨S8192, .i32⟩ : BufTy).Contents (Elt Ideal))

/-- The denominator of row `i`: its length floored at `eps12`, the same at every column. -/
theorem norm_apply (i : Fin 8192) (d : Fin 128) :
    val_main_v3 (F := Ideal) X (ix2 i d) = max (Ideal.sqrt (∑ k : Fin 128, X (ix2 i k) * X (ix2 i k))) eps12 := by
  have e : ∀ k : Fin 128, idx_main_call0_v1 (idx_main_call0_v2 (idx_main_v3 (ix2 i d))) k = ix2 i k := fun k =>
    funext fun a => by match a with | ⟨0, _⟩ => rfl | ⟨1, _⟩ => rfl
  rw [val_main_v3_apply, val_main_v2_apply, val_main_v0_apply, val_main_call0_v2_apply, val_main_call0_v1_apply,
    val_main_v1_apply, val_main_cst_apply, val_main_call0_cst_apply]
  simp only [e, val_main_call0_v0_apply, Ideal.maximumf_def, Ideal.hostUnary_sqrt_def, Ideal.ofBits_def, Ideal.mulf_def,
    Ideal.ofBits_zero_f32, zero_add, eps12]

/-- An entry of the scaled matrix is the entry of the unit row. -/
theorem unit_apply (i : Fin 8192) (d : Fin 128) :
    val_main_v4 (F := Ideal) X (ix2 i d) = unit (fun i d => X (ix2 i d)) i d := by
  rw [val_main_v4_apply, norm_apply]
  simp only [Ideal.hostDivf_def, unit, unitRow]

/-- An entry of the similarity matrix is the inner product of two unit rows. -/
theorem sim_apply (i j : Fin 8192) :
    val_main_v6 (F := Ideal) X (ix2 i j) = simR (fun i d => X (ix2 i d)) i j := by
  have el : ∀ k : Fin 128, lidx_main_v6 (ix2 i j) k = ix2 i k := fun k =>
    funext fun a => by match a with | ⟨0, _⟩ => rfl | ⟨1, _⟩ => rfl
  have er : ∀ k : Fin 128, idx_main_v5 (ridx_main_v6 (ix2 i j) k) = ix2 j k := fun k =>
    funext fun a => by match a with | ⟨0, _⟩ => rfl | ⟨1, _⟩ => rfl
  rw [val_main_v6_apply]
  simp only [val_main_v5_apply, el, er, unit_apply, simR, dot]

/-- A one-bit word read as a float is 1 or 0. -/
theorem uitofp_bit (b : BitVec 1) : (FloatOps.uitofp (F := Ideal) .f32 b : EReal) = if b = 1#1 then 1 else 0 := by
  rcases BitVec.eq_zero_or_eq_one b with h | h <;> subst h
  · show (((0#1 : BitVec 1).toNat : ℝ) : EReal) = _; simp
  · show (((1#1 : BitVec 1).toNat : ℝ) : EReal) = _; simp

/-- Row and column numbers below 2^32 are equal as 32-bit words only when equal. -/
theorem ofNat_inj (i j : Fin 8192) : BitVec.ofNat 32 i.val = BitVec.ofNat 32 j.val ↔ i = j := by
  constructor
  · intro h
    have := congrArg BitVec.toNat h
    simp only [BitVec.toNat_ofNat] at this
    exact Fin.ext (by omega)
  · rintro rfl; rfl

/-- The label read along the columns, and along the rows. -/
theorem lab_col (i j : Fin 8192) : val_main_v9 (F := Ideal) L (ix2 i j) = L (ix1 j) := by
  have e : idx_main_v7 (idx_main_v9 (ix2 i j)) = ix1 j := funext fun a => by match a with | ⟨0, _⟩ => rfl
  rw [val_main_v9_apply, val_main_v7_apply, e]
theorem lab_row (i j : Fin 8192) : val_main_v10 (F := Ideal) L (ix2 i j) = L (ix1 i) := by
  have e : idx_main_v8 (idx_main_v10 (ix2 i j)) = ix1 i := funext fun a => by match a with | ⟨0, _⟩ => rfl
  rw [val_main_v10_apply, val_main_v8_apply, e]
theorem lab_col' (i j : Fin 8192) : val_main_v18 (F := Ideal) L (ix2 i j) = L (ix1 j) := by
  have e : idx_main_v7 (idx_main_v18 (ix2 i j)) = ix1 j := funext fun a => by match a with | ⟨0, _⟩ => rfl
  rw [val_main_v18_apply, val_main_v7_apply, e]
theorem lab_row' (i j : Fin 8192) : val_main_v19 (F := Ideal) L (ix2 i j) = L (ix1 i) := by
  have e : idx_main_v8 (idx_main_v19 (ix2 i j)) = ix1 i := funext fun a => by match a with | ⟨0, _⟩ => rfl
  rw [val_main_v19_apply, val_main_v8_apply, e]

/-- The mask of pairs with different labels. -/
theorem mneg_apply (i j : Fin 8192) :
    val_main_v12 (F := Ideal) L (ix2 i j) = mNeg (fun i => L (ix1 i)) i j := by
  rw [val_main_v12_apply, val_main_v11_apply, lab_col, lab_row, uitofp_bit]
  unfold mNeg
  simp only [IntOp.cmpi_ne]
  by_cases h : L (ix1 i) = L (ix1 j)
  · rw [if_neg (fun h' => h' h.symm), if_pos h]
  · rw [if_pos (fun h' => h h'.symm), if_neg h]

/-- The mask of pairs with the same label off the diagonal. -/
theorem mpos_apply (i j : Fin 8192) :
    val_main_v23 (F := Ideal) L (ix2 i j) = mPos (fun i => L (ix1 i)) i j := by
  rw [val_main_v23_apply, val_main_v22_apply, val_main_v20_apply, val_main_v21_apply, val_main_v17_apply,
    val_main_v16_apply, val_main_v13_apply, val_main_v14_apply, val_main_v15_apply, val_main_c_apply,
    lab_col', lab_row', uitofp_bit]
  unfold mPos
  have hadd : IntOp.addi (BitVec.ofNat 32 (ix2 i j 0).val) 0#32 = BitVec.ofNat 32 i.val := by
    show BitVec.ofNat 32 i.val + 0#32 = _; exact BitVec.add_zero _
  rw [hadd]
  show (if IntOp.andi (IntOp.cmpi .eq (L (ix1 j)) (L (ix1 i))) (~~~IntOp.cmpi .eq (BitVec.ofNat 32 i.val) (BitVec.ofNat 32 j.val)) = 1#1 then (1 : EReal) else 0) = _
  simp only [IntOp.andi_eq_one, IntOp.not_eq_one, IntOp.cmpi_eq, ofNat_inj]
  by_cases h : L (ix1 i) = L (ix1 j) ∧ i ≠ j
  · rw [if_pos ⟨h.1.symm, h.2⟩, if_pos h]
  · rw [if_neg (fun h' => h ⟨h'.1.symm, h'.2⟩), if_neg h]

/-- An entry of the weight matrix. -/
theorem w_apply (i j : Fin 8192) :
    val_main_v26 (F := Ideal) X (ix2 i j) = wR (fun i d => X (ix2 i d)) i j := by
  rw [val_main_v26_apply, val_main_v25_apply, val_main_v24_apply, val_main_cst_0_apply, sim_apply]
  simp only [Ideal.hostUnary_exp_def, Ideal.hostDivf_def, Ideal.ofBits_def, wR, half]

/-- A rank-1 index set is its one coordinate range, so a sum over it is the sum over the coordinate. -/
def idxEquiv1 {n : Nat} : (⟨1, ![n]⟩ : Shape).Idx ≃ Fin n where
  toFun j := j 0
  invFun a := ix1 a
  left_inv j := (eq_ix1 j).symm
  right_inv _ := rfl
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The mean similarity over same-label pairs off the diagonal. -/
theorem pos_val :
    val_main_v41 (F := Ideal) X L = fun _ => posR (fun i d => X (ix2 i d)) (fun i => L (ix1 i)) := by
  funext q
  rw [val_main_v41_apply, val_main_v40_apply, val_main_cst_6_apply, val_main_cst_7_apply, sum_idx2]
  simp only [val_main_v39_apply, sim_apply, mpos_apply, Ideal.hostDivf_def, Ideal.ofBits_def, Ideal.mulf_def,
    Ideal.ofBits_zero_f32, zero_add, posR, c2p26]

/-- The mean similarity over pairs with different labels. -/
theorem neg_val :
    val_main_v44 (F := Ideal) X L = fun _ => negR (fun i d => X (ix2 i d)) (fun i => L (ix1 i)) := by
  funext q
  rw [val_main_v44_apply, val_main_v43_apply, val_main_cst_8_apply, val_main_cst_9_apply, sum_idx2]
  simp only [val_main_v42_apply, sim_apply, mneg_apply, Ideal.hostDivf_def, Ideal.ofBits_def, Ideal.mulf_def,
    Ideal.ofBits_zero_f32, zero_add, negR, c2p26]

/-- Row sums of the masked weights. -/
theorem num_apply (i : Fin 8192) :
    val_main_v28 (F := Ideal) X L (ix1 i) = numR (fun i d => X (ix2 i d)) (fun i => L (ix1 i)) i := by
  have e : ∀ k : Fin 8192, idx_main_v28 (ix1 i) k = ix2 i k := fun k =>
    funext fun a => by match a with | ⟨0, _⟩ => rfl | ⟨1, _⟩ => rfl
  rw [val_main_v28_apply, val_main_cst_1_apply]
  simp only [e, val_main_v27_apply, mpos_apply, w_apply, Ideal.ofBits_def, Ideal.mulf_def, Ideal.ofBits_zero_f32,
    zero_add, numR]
theorem den_apply (i : Fin 8192) :
    val_main_v30 (F := Ideal) X L (ix1 i) = denR (fun i d => X (ix2 i d)) (fun i => L (ix1 i)) i := by
  have e : ∀ k : Fin 8192, idx_main_v30 (ix1 i) k = ix2 i k := fun k =>
    funext fun a => by match a with | ⟨0, _⟩ => rfl | ⟨1, _⟩ => rfl
  rw [val_main_v30_apply, val_main_cst_2_apply]
  simp only [e, val_main_v29_apply, mneg_apply, w_apply, Ideal.ofBits_def, Ideal.mulf_def, Ideal.ofBits_zero_f32,
    zero_add, denR]

/-- The mean over rows of minus the logarithm of the ratio. -/
theorem loss_val :
    val_main_v38 (F := Ideal) X L = fun _ => lossR (fun i d => X (ix2 i d)) (fun i => L (ix1 i)) := by
  funext q
  rw [val_main_v38_apply, val_main_v37_apply, val_main_cst_4_apply, val_main_cst_5_apply, sum_idx1]
  simp only [val_main_v36_apply, val_main_v35_apply, val_main_v34_apply, val_main_v33_apply, val_main_v32_apply,
    val_main_v31_apply, val_main_cst_3_apply, num_apply, den_apply, Ideal.hostNegf_def, Ideal.negf_def,
    Ideal.hostUnary_log_def, Ideal.hostDivf_def, Ideal.addf_def, Ideal.ofBits_def, Ideal.ofBits_zero_f32, zero_add,
    lossR, eps8, c8192]

/-! ## The three results as the run states them -/

/-- The first result, the loss. -/
theorem loss_eq (m : (ℓ : Loc nD τ sig) → Buf (Elt Ideal) ℓ) (c : Dev nD) :
    Cert.ReferenceIdeal.Value.res_main_v38 (F := Ideal) m c
      = fun _ => lossR (fun i d => m ((c.tc : Thread nD τ).loc main_arg0) (ix2 i d))
          (fun i => m ((c.tc : Thread nD τ).loc main_arg1) (ix1 i)) :=
  (val_main_v38_eq m c).trans (loss_val _ _)

/-- The second result, the mean similarity of same-label pairs. -/
theorem pos_eq :
    Host.divf (F := Ideal) (Host.reduceAdd (F := Ideal) (mulf (F := Ideal) (Host.dotGeneral (F := Ideal) dot_S8192x128_S128x8192_S8192x8192_1_0_0_1_n_n none (Host.divf (F := Ideal) X (broadcastInDim S8192x128 ![0, 1] bcast_S8192x1_S8192x128_0_1 (maximumf (F := Ideal) (Host.sqrt (F := Ideal) (broadcastInDim S8192x1 ![0] bcast_S8192_S8192x1_0 (Host.reduceAdd (F := Ideal) (mulf (F := Ideal) X X) (constant (F := Ideal) S_ .f32 0x00000000#32) reducesTo_S8192x128_S8192_d1 h_S_))) (broadcastInDim S8192x1 ![] bcast_S_S8192x1 (constant (F := Ideal) S_ .f32 0x2B8CBCCC#32))))) (transpose S128x8192 [1, 0] (Host.divf (F := Ideal) X (broadcastInDim S8192x128 ![0, 1] bcast_S8192x1_S8192x128_0_1 (maximumf (F := Ideal) (Host.sqrt (F := Ideal) (broadcastInDim S8192x1 ![0] bcast_S8192_S8192x1_0 (Host.reduceAdd (F := Ideal) (mulf (F := Ideal) X X) (constant (F := Ideal) S_ .f32 0x00000000#32) reducesTo_S8192x128_S8192_d1 h_S_))) (broadcastInDim S8192x1 ![] bcast_S_S8192x1 (constant (F := Ideal) S_ .f32 0x2B8CBCCC#32))))) transposes_S8192x128_S128x8192_1_0)) (uitofp (F := Ideal) .f32 (andi (cmpi .eq (broadcastInDim S8192x8192 ![0, 1] bcast_S1x8192_S8192x8192_0_1 (broadcastInDim S1x8192 ![1] bcast_S8192_S1x8192_1 L)) (broadcastInDim S8192x8192 ![0, 1] bcast_S8192x1_S8192x8192_0_1 (broadcastInDim S8192x1 ![0] bcast_S8192_S8192x1_0 L))) (noti (cmpi .eq (addi (iotaInDim S8192x8192 32 0) (broadcastInDim S8192x8192 ![] bcast_S_S8192x8192 (constantI S_ 32 0#32))) (iotaInDim S8192x8192 32 1)))))) (constant (F := Ideal) S_ .f32 0x00000000#32) reducesTo_S8192x8192_S_d0_1 h_S_) (constant (F := Ideal) S_ .f32 0x4C800000#32)
      = fun _ => posR (fun i d => X (ix2 i d)) (fun i => L (ix1 i)) :=
  (val_main_v41_eq (F := Ideal) X L).trans (pos_val X L)

/-- The third result, the mean similarity of pairs with different labels. -/
theorem neg_eq :
    Host.divf (F := Ideal) (Host.reduceAdd (F := Ideal) (mulf (F := Ideal) (Host.dotGeneral (F := Ideal) dot_S8192x128_S128x8192_S8192x8192_1_0_0_1_n_n none (Host.divf (F := Ideal) X (broadcastInDim S8192x128 ![0, 1] bcast_S8192x1_S8192x128_0_1 (maximumf (F := Ideal) (Host.sqrt (F := Ideal) (broadcastInDim S8192x1 ![0] bcast_S8192_S8192x1_0 (Host.reduceAdd (F := Ideal) (mulf (F := Ideal) X X) (constant (F := Ideal) S_ .f32 0x00000000#32) reducesTo_S8192x128_S8192_d1 h_S_))) (broadcastInDim S8192x1 ![] bcast_S_S8192x1 (constant (F := Ideal) S_ .f32 0x2B8CBCCC#32))))) (transpose S128x8192 [1, 0] (Host.divf (F := Ideal) X (broadcastInDim S8192x128 ![0, 1] bcast_S8192x1_S8192x128_0_1 (maximumf (F := Ideal) (Host.sqrt (F := Ideal) (broadcastInDim S8192x1 ![0] bcast_S8192_S8192x1_0 (Host.reduceAdd (F := Ideal) (mulf (F := Ideal) X X) (constant (F := Ideal) S_ .f32 0x00000000#32) reducesTo_S8192x128_S8192_d1 h_S_))) (broadcastInDim S8192x1 ![] bcast_S_S8192x1 (constant (F := Ideal) S_ .f32 0x2B8CBCCC#32))))) transposes_S8192x128_S128x8192_1_0)) (uitofp (F := Ideal) .f32 (cmpi .ne (broadcastInDim S8192x8192 ![0, 1] bcast_S1x8192_S8192x8192_0_1 (broadcastInDim S1x8192 ![1] bcast_S8192_S1x8192_1 L)) (broadcastInDim S8192x8192 ![0, 1] bcast_S8192x1_S8192x8192_0_1 (broadcastInDim S8192x1 ![0] bcast_S8192_S8192x1_0 L))))) (constant (F := Ideal) S_ .f32 0x00000000#32) reducesTo_S8192x8192_S_d0_1 h_S_) (constant (F := Ideal) S_ .f32 0x4C800000#32)
      = fun _ => negR (fun i d => X (ix2 i d)) (fun i => L (ix1 i)) :=
  (val_main_v44_eq (F := Ideal) X L).trans (neg_val X L)

end Cert.ReferenceIdeal.RefValue

end
-- ==== Proof.LibMaskedRowSums.lean ====
/-
  Row sums over a labelled index set, on extended reals that are real numbers.

  For a row of numbers `a j` and a label `lab j` on every index, the sum over the indices that carry the label
  of `i`, with the entry of `i` itself taken away, is the sum of `a` against the 0/1 mask "same label and another
  index"; the sum over all indices with the same-label sum taken away is the sum of `a` against the 0/1 mask
  "other label".  Both are cancellations of a finite term from a finite sum, so they are stated for entries
  that are real numbers and proved in ℝ.  Also here: the coercion ℝ → EReal moved through finite sums, maxima,
  ideal square roots and ideal quotients, and the closure of "is a real number" under these operations.
-/
import Idealize.ShloMosaic.PureOps.Ideal

noncomputable section

namespace Cert.Lib.MaskedRowSums

open Idealize.ShloMosaic

/-! ## The coercion ℝ → EReal through the operations -/

/-- A finite sum of reals, read as an extended real, is the sum of the terms read as extended reals. -/
theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The larger of two reals, read as an extended real, is the larger of the two extended reals. -/
theorem coe_max (a b : ℝ) : ((max a b : ℝ) : EReal) = max (a : EReal) (b : EReal) :=
  EReal.coe_strictMono.monotone.map_max

/-- The ideal square root of a nonnegative real is its real square root. -/
theorem sqrt_coe_of_nonneg {r : ℝ} (h : 0 ≤ r) : Ideal.sqrt (r : EReal) = ((Real.sqrt r : ℝ) : EReal) := by
  rw [Ideal.sqrt_coe, if_neg (not_lt.mpr h)]

/-- The ideal quotient of a real by a nonzero real is the real quotient. -/
theorem div_coe_coe (a : ℝ) {b : ℝ} (h : b ≠ 0) : Ideal.div (a : EReal) (b : EReal) = ((a * (1 / b) : ℝ) : EReal) := by
  rw [Ideal.div_coe h, EReal.coe_mul]

/-- An inner product of real vectors, computed on the extended reals, is the real inner product. -/
theorem sum_mul_coe {ι : Type*} (s : Finset ι) (a b : ι → ℝ) :
    ∑ d ∈ s, (a d : EReal) * (b d : EReal) = ((∑ d ∈ s, a d * b d : ℝ) : EReal) := by
  rw [coe_sum]; exact Finset.sum_congr rfl (fun d _ => (EReal.coe_mul _ _).symm)

/-! ## Extended reals that are real numbers -/

/-- `a` is a real number. -/
def IsReal (a : EReal) : Prop := ∃ r : ℝ, a = (r : EReal)

theorem IsReal.coe (r : ℝ) : IsReal (r : EReal) := ⟨r, rfl⟩

theorem IsReal.mul {a b : EReal} (ha : IsReal a) (hb : IsReal b) : IsReal (a * b) := by
  obtain ⟨r, rfl⟩ := ha; obtain ⟨t, rfl⟩ := hb; exact ⟨r * t, (EReal.coe_mul r t).symm⟩

theorem IsReal.sum {ι : Type*} (s : Finset ι) (f : ι → EReal) (h : ∀ j ∈ s, IsReal (f j)) : IsReal (∑ j ∈ s, f j) := by
  classical
  induction s using Finset.induction_on with
  | empty => exact ⟨0, by simp⟩
  | insert a s ha ih =>
    obtain ⟨r, hr⟩ := h a (Finset.mem_insert_self a s)
    obtain ⟨t, ht⟩ := ih (fun j hj => h j (Finset.mem_insert_of_mem hj))
    exact ⟨r + t, by rw [Finset.sum_insert ha, hr, ht, EReal.coe_add]⟩

/-! ## The two cancellations, in ℝ -/

section Real
variable {ι L : Type*} [Fintype ι] [DecidableEq ι] [DecidableEq L]

/-- In ℝ: the same-label sum without the entry of `i` is the sum against the mask "same label, other index". -/
theorem real_sum_same_sub_self (lab : ι → L) (a : ι → ℝ) (i : ι) :
    (∑ j, if lab i = lab j then a j else 0) - a i
      = ∑ j, (if lab i = lab j ∧ i ≠ j then (1 : ℝ) else 0) * a j := by
  have h : ∀ j, (if lab i = lab j ∧ i ≠ j then (1 : ℝ) else 0) * a j
      = (if lab i = lab j then a j else 0) - (if i = j then a j else 0) := by
    intro j
    by_cases h2 : i = j
    · subst h2; simp
    · by_cases h1 : lab i = lab j <;> simp [h1, h2]
  simp only [h, Finset.sum_sub_distrib, Finset.sum_ite_eq, Finset.mem_univ, if_true]

/-- In ℝ: the sum of all entries without the entries labelled `l` is the sum against the mask "label other than `l`". -/
theorem real_sum_all_sub_same (lab : ι → L) (l : L) (a : ι → ℝ) :
    (∑ j, a j) - (∑ j, if l = lab j then a j else 0)
      = ∑ j, (if l = lab j then (0 : ℝ) else 1) * a j := by
  rw [← Finset.sum_sub_distrib]
  refine Finset.sum_congr rfl (fun j _ => ?_)
  by_cases h1 : l = lab j <;> simp [h1]

end Real

/-! ## The two cancellations, on extended reals that are real numbers -/

section Ext
variable {ι L : Type*} [Fintype ι] [DecidableEq ι] [DecidableEq L]

/-- The same-label sum of a real row without the entry of `i` is the sum against the 0/1 mask
    "same label as `i` and an index other than `i`". -/
theorem sum_same_sub_self (lab : ι → L) (a : ι → EReal) (ha : ∀ j, IsReal (a j)) (i : ι) :
    (∑ j, if lab i = lab j then a j else 0) - a i
      = ∑ j, (if lab i = lab j ∧ i ≠ j then (1 : EReal) else 0) * a j := by
  choose r hr using ha
  have hl : (∑ j, if lab i = lab j then a j else 0) = ((∑ j, if lab i = lab j then r j else 0 : ℝ) : EReal) := by
    rw [coe_sum]
    refine Finset.sum_congr rfl (fun j _ => ?_)
    rw [hr j]; split_ifs <;> rfl
  have hm : ∀ j, (if lab i = lab j ∧ i ≠ j then (1 : EReal) else 0) * a j
      = (((if lab i = lab j ∧ i ≠ j then (1 : ℝ) else 0) * r j : ℝ) : EReal) := by
    intro j
    rw [hr j, EReal.coe_mul]; split_ifs <;> rfl
  rw [hl, hr i, ← EReal.coe_sub, real_sum_same_sub_self, coe_sum]
  exact Finset.sum_congr rfl (fun j _ => (hm j).symm)

/-- The sum of a real row without its entries labelled `l` is the sum against the 0/1 mask "label other than `l`". -/
theorem sum_all_sub_same (lab : ι → L) (l : L) (a : ι → EReal) (ha : ∀ j, IsReal (a j)) :
    (∑ j, a j) - (∑ j, if l = lab j then a j else 0)
      = ∑ j, (if l = lab j then (0 : EReal) else 1) * a j := by
  choose r hr using ha
  have hall : (∑ j, a j) = ((∑ j, r j : ℝ) : EReal) := by
    rw [coe_sum]; exact Finset.sum_congr rfl (fun j _ => hr j)
  have hl : (∑ j, if l = lab j then a j else 0) = ((∑ j, if l = lab j then r j else 0 : ℝ) : EReal) := by
    rw [coe_sum]
    refine Finset.sum_congr rfl (fun j _ => ?_)
    rw [hr j]; split_ifs <;> rfl
  have hm : ∀ j, (if l = lab j then (0 : EReal) else 1) * a j
      = (((if l = lab j then (0 : ℝ) else 1) * r j : ℝ) : EReal) := by
    intro j
    rw [hr j, EReal.coe_mul]; split_ifs <;> rfl
  rw [hall, hl, ← EReal.coe_sub, real_sum_all_sub_same, coe_sum]
  exact Finset.sum_congr rfl (fun j _ => (hm j).symm)

end Ext

end Cert.Lib.MaskedRowSums

end
-- ==== Proof.Algebra.lean ====
/-
  On real-valued data the kernel's arrangement and the reference's arrangement of the specification are the same
  three numbers.

  Finiteness first: a row of reals has a nonnegative real sum of squares, whose square root is a nonnegative real;
  floored at the positive constant `eps12` it is a positive real, so every entry of the unit row is a real, every
  inner product of unit rows is a real, and every weight `exp (2 s)` is a real.  The kernel's `s * 2` is the
  reference's `s / (1/2)` for every extended real `s`.  Then, row by row, the kernel's "same-label sum minus the
  diagonal term" is the reference's sum against the mask "same label, other index", and "total minus same-label
  sum" is the sum against the mask "other label": cancellations of finite terms from finite sums.
-/
import proofs.«137735_j51797305589975_2_alg».proof.Proof.Spec
import proofs.«137735_j51797305589975_2_alg».proof.Proof.LibMaskedRowSums

noncomputable section

namespace Cert.SupCon

open Idealize.ShloMosaic Cert.Lib.MaskedRowSums

/-! ## The constants -/

/-- The floor `eps12` is a positive real. -/
theorem eps12_pos : ∃ e : ℝ, 0 < e ∧ eps12 = (e : EReal) := by
  refine ⟨9223372 * (2 : ℝ) ^ (-63 : ℤ), by positivity, ?_⟩
  simp [eps12, Ideal.ofBits, Ideal.ieee, -EReal.coe_mul]

/-- The kernel's inverse temperature is the real `2`. -/
theorem two_eq : two = ((2 : ℝ) : EReal) := by
  simp [two, Ideal.ofBits, Ideal.ieee, -EReal.coe_mul]; norm_num

/-- The reference's temperature is the real `1/2`. -/
theorem half_eq : half = ((1 / 2 : ℝ) : EReal) := by
  simp [half, Ideal.ofBits, Ideal.ieee, -EReal.coe_mul]; norm_num

/-- Multiplying by `2` is dividing by `1/2`, at the infinities too. -/
theorem mul_two_eq_div_half (s : EReal) : s * two = Ideal.div s half := by
  rw [two_eq, half_eq, Ideal.div_coe (by norm_num)]; norm_num

/-! ## Finiteness -/

/-- Every entry of the unit row of a real row is a real. -/
theorem unitRow_real (v : Fin 128 → EReal) (hv : ∀ d, IsReal (v d)) (d : Fin 128) : IsReal (unitRow v d) := by
  choose w hw using hv
  obtain ⟨e, he, hE⟩ := eps12_pos
  have hs : (∑ k : Fin 128, v k * v k) = ((∑ k : Fin 128, w k * w k : ℝ) : EReal) := by
    rw [← sum_mul_coe]; exact Finset.sum_congr rfl (fun k _ => by rw [hw k])
  have hnn : 0 ≤ ∑ k : Fin 128, w k * w k := Finset.sum_nonneg (fun k _ => mul_self_nonneg _)
  have hpos : max (Real.sqrt (∑ k : Fin 128, w k * w k)) e ≠ 0 := ne_of_gt (lt_max_of_lt_right he)
  unfold unitRow
  rw [hs, sqrt_coe_of_nonneg hnn, hE, ← coe_max, hw d, div_coe_coe _ hpos]
  exact ⟨_, rfl⟩

/-- The inner product of two real rows is a real. -/
theorem dot_real (a b : Fin 128 → EReal) (ha : ∀ d, IsReal (a d)) (hb : ∀ d, IsReal (b d)) : IsReal (dot a b) :=
  IsReal.sum _ _ (fun d _ => (ha d).mul (hb d))

/-- The kernel's weight of a real similarity is a real. -/
theorem exp_mul_two_real {s : EReal} (hs : IsReal s) : IsReal (Ideal.exp (s * two)) := by
  obtain ⟨r, rfl⟩ := hs
  rw [two_eq, ← EReal.coe_mul, Ideal.exp_coe]
  exact ⟨_, rfl⟩

section Whole
variable (x : Fin 8192 → Fin 128 → EReal) (lab : Fin 8192 → BitVec 32)

/-- The reference's weight is the kernel's weight, for every data. -/
theorem wR_eq_wK (i j : Fin 8192) : wR x i j = wK (unit x i) (unit x) j := by
  unfold wR wK simR
  rw [mul_two_eq_div_half]

variable (hx : ∀ i d, ∃ r : ℝ, x i d = (r : EReal))
include hx

theorem unit_real (i : Fin 8192) (d : Fin 128) : IsReal (unit x i d) := unitRow_real (x i) (hx i) d

theorem simR_real (i j : Fin 8192) : IsReal (dot (unit x i) (unit x j)) :=
  dot_real _ _ (unit_real x hx i) (unit_real x hx j)

theorem wK_real (i j : Fin 8192) : IsReal (wK (unit x i) (unit x) j) :=
  exp_mul_two_real (simR_real x hx i j)

/-! ## The rows -/

/-- Same-label weights without the diagonal: the reference's masked sum. -/
theorem numRow_eq_numR (i : Fin 8192) : numRow (unit x i) (unit x) (lab i) lab (unit x i) = numR x lab i := by
  unfold numRow sumEqW numR mPos
  simp only [wR_eq_wK]
  exact sum_same_sub_self lab (fun j => wK (unit x i) (unit x) j) (fun j => wK_real x hx i j) i

/-- Other-label weights: the reference's masked sum. -/
theorem denRow_eq_denR (i : Fin 8192) : denRow (unit x i) (unit x) (lab i) lab = denR x lab i := by
  unfold denRow sumAllW sumEqW denR mNeg
  simp only [wR_eq_wK]
  exact sum_all_sub_same lab (lab i) (fun j => wK (unit x i) (unit x) j) (fun j => wK_real x hx i j)

/-- Same-label similarities without the diagonal: the reference's masked sum. -/
theorem rowPos_eq (i : Fin 8192) :
    rowPos (unit x i) (unit x) (lab i) lab (unit x i) = ∑ j : Fin 8192, simR x i j * mPos lab i j := by
  unfold rowPos sumEqS simR mPos
  refine (sum_same_sub_self lab (fun j => dot (unit x i) (unit x j)) (fun j => simR_real x hx i j) i).trans ?_
  exact Finset.sum_congr rfl (fun j _ => mul_comm _ _)

/-- Other-label similarities: the reference's masked sum. -/
theorem rowNeg_eq (i : Fin 8192) :
    rowNeg (unit x i) (unit x) (lab i) lab = ∑ j : Fin 8192, simR x i j * mNeg lab i j := by
  unfold rowNeg sumAllS sumEqS simR mNeg
  refine (sum_all_sub_same lab (lab i) (fun j => dot (unit x i) (unit x j)) (fun j => simR_real x hx i j)).trans ?_
  exact Finset.sum_congr rfl (fun j _ => mul_comm _ _)

/-! ## The three results -/

theorem lossK_eq_lossR : lossK x lab = lossR x lab := by
  unfold lossK lossR
  refine congrArg (fun t => Ideal.div t c8192) (Finset.sum_congr rfl (fun i _ => ?_))
  unfold rowLoss
  rw [numRow_eq_numR x lab hx i, denRow_eq_denR x lab hx i, zero_sub]

theorem posK_eq_posR : posK x lab = posR x lab := by
  unfold posK posR
  exact congrArg (fun t => Ideal.div t c2p26) (Finset.sum_congr rfl (fun i _ => rowPos_eq x lab hx i))

theorem negK_eq_negR : negK x lab = negR x lab := by
  unfold negK negR
  exact congrArg (fun t => Ideal.div t c2p26) (Finset.sum_congr rfl (fun i _ => rowNeg_eq x lab hx i))

end Whole

end Cert.SupCon

end
-- ==== Proof.FiniteInputs.lean ====
/-
  Finiteness of the feature matrix from the precondition. The printed predicate is the conjunction, over all
  entries, of "the absolute value of the entry is below plus infinity"; when it holds every entry of the matrix
  is a real number: the absolute value of either infinity is plus infinity.
-/
import proofs.«137735_j51797305589975_2_alg».proof.Defs
import proofs.«137735_j51797305589975_2_alg».proof.Proof.Gen.Pre_finite_inputs
import Idealize.ShloMosaic.Lib.ReduceAll
import Idealize.ShloMosaic.Lib.ValueIdx

noncomputable section

namespace Cert.FiniteInputs

open Idealize.ShloMosaic Idealize.ShloMosaic.ValueIdx

/-- The scalar shape has one index. -/
instance : Subsingleton Cert.Pre_finite_inputs.S_.Idx := ⟨fun a b => funext fun d => d.elim0⟩

/-- The word 0x7F800000 is plus infinity. -/
theorem top_f32 : Ideal.ofBits .f32 0x7F800000#32 = ⊤ := by simp [Ideal.ofBits, Ideal.ieee]

/-- An ordered "less than" that came out 1 says the first value is below the second. -/
theorem lt_of_cmp_olt {a b : EReal} (h : Ideal.cmp .olt a b = 1#1) : a < b := by
  by_contra hlt
  have h0 : Ideal.cmp .olt a b = 0#1 := by simp [Ideal.cmp, hlt]
  rw [h0] at h
  exact absurd h (by decide)

/-- An extended real whose absolute value is below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the feature matrix is a real number. -/
theorem real_of_pre [hPre : Cert.Pre_finite_inputs.Facts] (X : FVec Ideal Cert.Pre_finite_inputs.S8192x128 .f32)
    (L : IVec Cert.Pre_finite_inputs.S8192 32)
    (h : Cert.Pre_finite_inputs.fn (F := Ideal) X L = fun _ => 1#1) :
    ∀ (i : Fin 8192) (d : Fin 128), ∃ r : ℝ, X (ix2 i d) = (r : EReal) := by
  intro i d
  have h0 := congrFun h ix0
  dsimp only [Cert.Pre_finite_inputs.fn] at h0
  have h1 := Host.reduce_andi_all _ _ _ _ _ h0 (ix2 i d)
  have h2 : Ideal.cmp .olt (max (X (ix2 i d)) (-(X (ix2 i d)))) (Ideal.ofBits .f32 0x7F800000#32) = 1#1 := h1
  rw [top_f32] at h2
  exact real_of_abs_lt_top _ (lt_of_cmp_olt h2)

end Cert.FiniteInputs

end
-- ==== Proof.lean ====
/-
  A supervised contrastive loss in two arrangements.

  Both programs scale every row of an 8192 × 128 feature matrix to unit length (the length floored at 1e-12), take all
  inner products s(i,j) of the unit rows and the weights e(i,j) = exp(s(i,j) / (1/2)), and return three numbers:
  the mean over rows i of −log((num_i + 1e-8) / (den_i + num_i)), where num_i sums the weights of the other rows with
  row i's label and den_i the weights of the rows with another label; the mean over all pairs of the similarities of
  distinct rows with one label; and the mean over all pairs of the similarities of rows with different labels.

  The reference forms num, den and the two means by multiplying with 0/1 masks. The kernel runs two regions — one
  writes the unit rows, one handles 256 query rows at a time against all rows — and gets the same four row
  quantities as "sum over the same label minus the diagonal term" and "total minus sum over the same label", the
  weight taken as exp(s · 2). On finite inputs every similarity and weight is a real number, a real term may be
  cancelled from a real sum, and the two arrangements are equal; at an infinity the cancellation fails, which is
  why the equality uses the precondition that every input is finite.

  The frames: each program is its segments run in order (Whole, at either reading of the floats); the kernel's value
  is read off the same run (EndValue), the reference's off its operations (RefValue); the algebra joins them.
-/
import proofs.«137735_j51797305589975_2_alg».proof.Defs
import proofs.«137735_j51797305589975_2_alg».proof.Proof.Gen.Kernel
import proofs.«137735_j51797305589975_2_alg».proof.Proof.Gen.KernelIdeal
import proofs.«137735_j51797305589975_2_alg».proof.Proof.Gen.ReferenceIdeal
import proofs.«137735_j51797305589975_2_alg».proof.Proof.Gen.ReferenceIdeal.Run
import proofs.«137735_j51797305589975_2_alg».proof.Proof.Gen.ReferenceIdeal.Read
import proofs.«137735_j51797305589975_2_alg».proof.Proof.Gen.Pre_finite_inputs
import proofs.«137735_j51797305589975_2_alg».proof.Proof.WholeBits
import proofs.«137735_j51797305589975_2_alg».proof.Proof.WholeIdeal
import proofs.«137735_j51797305589975_2_alg».proof.Proof.EndValue
import proofs.«137735_j51797305589975_2_alg».proof.Proof.RefValue
import proofs.«137735_j51797305589975_2_alg».proof.Proof.Algebra
import proofs.«137735_j51797305589975_2_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem Cert.SupCon

/-- The kernel as printed runs to its end and leaves both arguments as launched. -/
theorem frame_k : Cert.frame_Kernel :=
  fun m ρ _ => Cert.Kernel.Whole.frame (F := Bits) m ρ

/-- So does its idealization. -/
theorem frame_ki : Cert.frame_KernelIdeal :=
  fun m ρ _ => Cert.KernelIdeal.Whole.frame (F := Ideal) m ρ

/-- The reference's frame is its run with the results dropped. -/
theorem frame_ri : Cert.frame_ReferenceIdeal :=
  fun m ρ _ => (θ_run Cert.ReferenceIdeal.defs _ _).mono (fun _ h c => (h c).2.2.2) (Cert.ReferenceIdeal.Value.run (F := Ideal) m ρ)

/-- From memories agreeing on the arguments, both idealized programs end with the reference's three numbers: the
    kernel's are its own arrangement, equal to the reference's on finite inputs. -/
theorem algebraic : Cert.algebraic_KernelIdeal_ReferenceIdeal := by
  intro m ρ m' ρ' hpre hagree
  have hreal : ∀ c i d, ∃ r : ℝ, Cert.KernelIdeal.EndValue.xs m c i d = (r : EReal) :=
    fun c i d => Cert.FiniteInputs.real_of_pre _ _ (hpre c) i d
  refine ⟨fun c _ => lossR (Cert.KernelIdeal.EndValue.xs m c) (Cert.KernelIdeal.EndValue.ls m c),
    fun c _ => posR (Cert.KernelIdeal.EndValue.xs m c) (Cert.KernelIdeal.EndValue.ls m c),
    fun c _ => negR (Cert.KernelIdeal.EndValue.xs m c) (Cert.KernelIdeal.EndValue.ls m c), ?_, ?_⟩
  · refine (θ_run Cert.KernelIdeal.defs _ _).mono (fun r h c => ⟨?_, ?_, ?_, ?_, ?_⟩) (Cert.KernelIdeal.Whole.run (F := Ideal) m ρ)
    · exact (h c _ (Cert.KernelIdeal.Whole.mem_uc Cert.KernelIdeal.main_v5 (by decide))).trans
        ((Cert.KernelIdeal.EndValue.We_loss m ρ c).trans (funext fun _ => lossK_eq_lossR _ _ (hreal c)))
    · exact (h c _ (Cert.KernelIdeal.Whole.mem_uc Cert.KernelIdeal.main_v7 (by decide))).trans
        ((Cert.KernelIdeal.EndValue.We_pos m ρ c).trans (funext fun _ => posK_eq_posR _ _ (hreal c)))
    · exact (h c _ (Cert.KernelIdeal.Whole.mem_uc Cert.KernelIdeal.main_v9 (by decide))).trans
        ((Cert.KernelIdeal.EndValue.We_neg m ρ c).trans (funext fun _ => negK_eq_negR _ _ (hreal c)))
    · exact (h c _ (Cert.KernelIdeal.Whole.mem_uc Cert.KernelIdeal.main_arg0 (by decide))).trans (Cert.KernelIdeal.Whole.We_main_arg0 m ρ c)
    · exact (h c _ (Cert.KernelIdeal.Whole.mem_uc Cert.KernelIdeal.main_arg1 (by decide))).trans (Cert.KernelIdeal.Whole.We_main_arg1 m ρ c)
  · refine (θ_run Cert.ReferenceIdeal.defs _ _).mono (fun r h c => ⟨(h c).1.trans ?_, (h c).2.1.trans ?_, (h c).2.2.1.trans ?_, (h c).2.2.2.1, (h c).2.2.2.2⟩)
      (Cert.ReferenceIdeal.Value.run (F := Ideal) m' ρ')
    · rw [Cert.ReferenceIdeal.RefValue.loss_eq m' c, (hagree c).1, (hagree c).2] <;> rfl
    · rw [Cert.ReferenceIdeal.RefValue.pos_eq, (hagree c).1, (hagree c).2] <;> rfl
    · rw [Cert.ReferenceIdeal.RefValue.neg_eq, (hagree c).1, (hagree c).2] <;> rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
